-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S262144 : Shape := ⟨1, ![262144]⟩
abbrev S8192x16 : Shape := ⟨2, ![8192, 16]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S64x16 .f32) (main_arg7 : FVec F S16 .f32) (main_arg8 : FVec F S64x16 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_v33

def fn {F : FTy → Type} [FloatOps F] (main_arg0 : FVec F S8192x256 .f32) (main_arg1 : IVec S262144 32) (main_arg2 : IVec S262144 32) (main_arg3 : FVec F S8192x16 .f32) (main_arg4 : FVec F S256x64 .f32) (main_arg5 : FVec F S64 .f32) (main_arg6 : FVec F S64x16 .f32) (main_arg7 : FVec F S16 .f32) (main_arg8 : FVec F S64x16 .f32) (main_arg9 : FVec F S16 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x16 .f32 := Host.absf main_arg3
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S8192x256 : Shape := ⟨2, ![8192, 256]⟩
abbrev S262144 : Shape := ⟨1, ![262144]⟩
abbrev S8192x16 : Shape := ⟨2, ![8192, 16]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x64 : Shape := ⟨2, ![8192, 64]⟩
abbrev S262144x64 : Shape := ⟨2, ![262144, 64]⟩
abbrev S1x64 : Shape := ⟨2, ![1, 64]⟩
abbrev S64x32 : Shape := ⟨2, ![64, 32]⟩
abbrev S32 : Shape := ⟨1, ![32]⟩
abbrev S8192x32 : Shape := ⟨2, ![8192, 32]⟩
abbrev S262144x32 : Shape := ⟨2, ![262144, 32]⟩
abbrev S1x32 : Shape := ⟨2, ![1, 32]⟩
abbrev S8192x8192 : Shape := ⟨2, ![8192, 8192]⟩
abbrev S1024x2048 : Shape := ⟨2, ![1024, 2048]⟩
abbrev S1024x16 : Shape := ⟨2, ![1024, 16]⟩
abbrev S2048x16 : Shape := ⟨2, ![2048, 16]⟩

abbrev nBuf : Space → Nat
  | .hbm => 119
  | .vmem => 3
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S8192x16, .f32⟩
  | .hbm, ⟨4, _⟩ => ⟨S256x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S64x16, .f32⟩
  | .hbm, ⟨9, _⟩ => ⟨S16, .f32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S8192, .f32⟩
  | .hbm, ⟨14, _⟩ => ⟨S262144x1, .i32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S8192, .f32⟩
  | .hbm, ⟨27, _⟩ => ⟨S262144x1, .i32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S8192x64, .f32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S262144x1, .i32⟩
  | .hbm, ⟨48, _⟩ => ⟨S262144x64, .f32⟩
  | .hbm, ⟨49, _⟩ => ⟨S_, .f32⟩
  | .hbm, ⟨50, _⟩ => ⟨S8192x64, .f32⟩
  | .hbm, ⟨51, _⟩ => ⟨S262144x1, .i32⟩
  | .hbm, ⟨52, _⟩ => ⟨S8192x64, .f32⟩
  | .hbm, ⟨53, _⟩ => ⟨S8192x1, .f32⟩
  | .hbm, ⟨54, _⟩ => ⟨S8192x64, .f32⟩
  | .hbm, ⟨55, _⟩ => ⟨S8192x64, .f32⟩
  | .hbm, ⟨56, _⟩ => ⟨S1x64, .f32⟩
  | .hbm, ⟨57, _⟩ => ⟨S8192x64, .f32⟩
  | .hbm, ⟨58, _⟩ => ⟨S8192x64, .f32⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S64x32, .f32⟩
  | .hbm, ⟨63, _⟩ => ⟨S32, .f32⟩
  | .hbm, ⟨64, _⟩ => ⟨S_, .f32⟩
  | .hbm, ⟨65, _⟩ => ⟨S262144, .f32⟩
  | .hbm, ⟨66, _⟩ => ⟨S_, .f32⟩
  | .hbm, ⟨67, _⟩ => ⟨S8192, .f32⟩
  | .hbm, ⟨68, _⟩ => ⟨S262144x1, .i32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S262144, .f32⟩
  | .hbm, ⟨79, _⟩ => ⟨S_, .f32⟩
  | .hbm, ⟨80, _⟩ => ⟨S8192, .f32⟩
  | .hbm, ⟨81, _⟩ => ⟨S262144x1, .i32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192x1, .f32⟩
  | .hbm, ⟨91, _⟩ => ⟨S8192x64, .f32⟩
  | .hbm, ⟨92, _⟩ => ⟨S8192x64, .f32⟩
  | .hbm, ⟨93, _⟩ => ⟨S8192x32, .f32⟩
  | .hbm, ⟨94, _⟩ => ⟨S_, .i32⟩
  | .hbm, ⟨95, _⟩ => ⟨S262144, .i32⟩
  | .hbm, ⟨96, _⟩ => ⟨S262144, .i1⟩
  | .hbm, ⟨97, _⟩ => ⟨S_, .i32⟩
  | .hbm, ⟨98, _⟩ => ⟨S262144, .i32⟩
  | .hbm, ⟨99, _⟩ => ⟨S262144, .i32⟩
  | .hbm, ⟨100, _⟩ => ⟨S262144, .i32⟩
  | .hbm, ⟨101, _⟩ => ⟨S262144x1, .i32⟩
  | .hbm, ⟨102, _⟩ => ⟨S262144x32, .f32⟩
  | .hbm, ⟨103, _⟩ => ⟨S_, .f32⟩
  | .hbm, ⟨104, _⟩ => ⟨S8192x32, .f32⟩
  | .hbm, ⟨105, _⟩ => ⟨S262144x1, .i32⟩
  | .hbm, ⟨106, _⟩ => ⟨S8192x32, .f32⟩
  | .hbm, ⟨107, _⟩ => ⟨S8192x1, .f32⟩
  | .hbm, ⟨108, _⟩ => ⟨S8192x32, .f32⟩
  | .hbm, ⟨109, _⟩ => ⟨S8192x32, .f32⟩
  | .hbm, ⟨110, _⟩ => ⟨S1x32, .f32⟩
  | .hbm, ⟨111, _⟩ => ⟨S8192x32, .f32⟩
  | .hbm, ⟨112, _⟩ => ⟨S8192x32, .f32⟩
  | .hbm, ⟨113, _⟩ => ⟨S8192x16, .f32⟩
  | .hbm, ⟨114, _⟩ => ⟨S8192x16, .f32⟩
  | .hbm, ⟨115, _⟩ => ⟨S8192x16, .f32⟩
  | .hbm, ⟨116, _⟩ => ⟨S8192x16, .f32⟩
  | .hbm, ⟨117, _⟩ => ⟨S8192x16, .f32⟩
  | .hbm, ⟨118, _⟩ => ⟨S8192x8192, .f32⟩
  | .local _ .vmem, ⟨0, _⟩ => ⟨S8192x16, .f32⟩
  | .local _ .vmem, ⟨1, _⟩ => ⟨S1024x2048, .f32⟩
  | .local _ .vmem, ⟨2, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call2_cst : Ref sig .tc := ⟨.hbm, 59, rfl⟩
abbrev main_call2_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_cst_14 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_15 : Ref sig .tc := ⟨.hbm, 83, rfl⟩
abbrev main_call4_v0 : Ref sig .tc := ⟨.hbm, 84, rfl⟩
abbrev main_call4_v1 : Ref sig .tc := ⟨.hbm, 85, rfl⟩
abbrev main_v48 : Ref sig .tc := ⟨.hbm, 86, rfl⟩
abbrev main_cst_16 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_17 : Ref sig .tc := ⟨.hbm, 94, rfl⟩
abbrev main_v55 : Ref sig .tc := ⟨.hbm, 95, rfl⟩
abbrev main_v56 : Ref sig .tc := ⟨.hbm, 96, rfl⟩
abbrev main_c_18 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_19 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c2048_i32 : BitVec 32 := 2048#32
  let v2 : BitVec 32 := Scalar.muli arg1 c2048_i32
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c2048_i32 : BitVec 32 := 2048#32
  let v2 : BitVec 32 := Scalar.muli arg1 c2048_i32
  let v3 : BitVec 32 := v2
  let v8 : Index := Scalar.indexCast v3
  let c0_0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  concatenates_S64x16_S64x16_S64x32_d1 : Shape.Concatenates [S64x16, S64x16] S64x32 1
  concatenates_S16_S16_S32_d0 : Shape.Concatenates [S16, S16] S32 0
  bcast_S_S8192x32 : S_.BroadcastsInDim S8192x32 (![] : Fin 0 → Fin S8192x32.rank)
  bcast_S8192x1_S8192x32_0_1 : S8192x1.BroadcastsInDim S8192x32 (![0, 1] : Fin 2 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  slices_S8192x32_S8192x16_0_0 : S8192x32.Slices ![0, 0] S8192x16
  slices_S8192x32_S8192x16_0_16 : S8192x32.Slices ![0, 16] S8192x16
  h_S1024x16 : 0 < S1024x16.numel
  shapeCasts_S1024x16_S1024x16 : S1024x16.ShapeCasts S1024x16
  bitsLt_bf16_f32 : FTy.bits .bf16 < FTy.bits .f32
  h_S2048x16 : 0 < S2048x16.numel
  shapeCasts_S2048x16_S2048x16 : S2048x16.ShapeCasts S2048x16
  inb_S1024x2048_S1024x2048_0_0 : ∀ a, (![0, 0] : Fin 2 → Nat) a + S1024x2048.size a ≤ S1024x2048.size a
  h_S1024x2048 : 0 < S1024x2048.numel
  scatter_S8192_S262144x1_S262144_n_0_0_1_wf : ScatterDims.WF S8192 S262144x1 S262144 [] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x32_S8192x32_1_0_0_1_n_n_wf : DotDims.WF S8192x64 S64x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S1024x16_S2048x16_S1024x2048_1_1_0_0_n_n_wf : DotDims.WF S1024x16 S2048x16 S1024x2048 [1] [1] [0] [0] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1024x16.size a ≤ S8192x16.size a
  k0_off2_inb : ∀ i : grid0.Coords, ∀ a, (k0_off2 i) a + S2048x16.size a ≤ S8192x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S8192x16.size a
  hwx0_0 : ∀ i : grid0.Coords, EltTy.bits .f32 = 32 ∨ (Rect.block (s := S8192x16) S8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_v75) S8192x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v76) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S262144 : Shape := ⟨1, ![262144]⟩
abbrev S8192x16 : Shape := ⟨2, ![8192, 16]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x64 : Shape := ⟨2, ![8192, 64]⟩
abbrev S262144x64 : Shape := ⟨2, ![262144, 64]⟩
abbrev S1x64 : Shape := ⟨2, ![1, 64]⟩
abbrev S262144x16 : Shape := ⟨2, ![262144, 16]⟩
abbrev S1x16 : Shape := ⟨2, ![1, 16]⟩
abbrev S16x8192 : Shape := ⟨2, ![16, 8192]⟩
abbrev S8192x8192 : Shape := ⟨2, ![8192, 8192]⟩

abbrev nBuf : Space → Nat
  | .hbm => 173
  | .vmem => 0
  | .smem => 0
  | _ => 0

abbrev hbmTy0_0 (i : Nat) : BufTy := match i % 128 with
  | 0 => ⟨S8192x256, .f32⟩
  | 1 => ⟨S262144, .i32⟩
  | 2 => ⟨S262144, .i32⟩
  | 3 => ⟨S8192x16, .f32⟩
  | 4 => ⟨S256x64, .f32⟩
  | 5 => ⟨S64, .f32⟩
  | 6 => ⟨S64x16, .f32⟩
  | 7 => ⟨S16, .f32⟩
  | 8 => ⟨S64x16, .f32⟩
  | 9 => ⟨S16, .f32⟩
  | 10 => ⟨S_, .f32⟩
  | 11 => ⟨S262144, .f32⟩
  | 12 => ⟨S_, .f32⟩
  | 13 => ⟨S8192, .f32⟩
  | 14 => ⟨S262144x1, .i32⟩
  | 15 => ⟨S8192, .f32⟩
  | 16 => ⟨S_, .f32⟩
  | 17 => ⟨S_, .f32⟩
  | 18 => ⟨S8192, .f32⟩
  | 19 => ⟨S8192, .f32⟩
  | 20 => ⟨S_, .f32⟩
  | 21 => ⟨S8192, .f32⟩
  | 22 => ⟨S8192, .f32⟩
  | 23 => ⟨S_, .f32⟩
  | 24 => ⟨S262144, .f32⟩
  | 25 => ⟨S_, .f32⟩
  | 26 => ⟨S8192, .f32⟩
  | 27 => ⟨S262144x1, .i32⟩
  | 28 => ⟨S8192, .f32⟩
  | 29 => ⟨S_, .f32⟩
  | 30 => ⟨S_, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192x1, .f32⟩
  | 37 => ⟨S8192x256, .f32⟩
  | 38 => ⟨S8192x256, .f32⟩
  | 39 => ⟨S8192x64, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x64, .f32⟩
  | 49 => ⟨S_, .f32⟩
  | 50 => ⟨S8192x64, .f32⟩
  | 51 => ⟨S262144x1, .i32⟩
  | 52 => ⟨S8192x64, .f32⟩
  | 53 => ⟨S8192x1, .f32⟩
  | 54 => ⟨S8192x64, .f32⟩
  | 55 => ⟨S8192x64, .f32⟩
  | 56 => ⟨S1x64, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S_, .f32⟩
  | 63 => ⟨S262144, .f32⟩
  | 64 => ⟨S_, .f32⟩
  | 65 => ⟨S8192, .f32⟩
  | 66 => ⟨S262144x1, .i32⟩
  | 67 => ⟨S8192, .f32⟩
  | 68 => ⟨S_, .f32⟩
  | 69 => ⟨S_, .f32⟩
  | 70 => ⟨S8192, .f32⟩
  | 71 => ⟨S8192, .f32⟩
  | 72 => ⟨S_, .f32⟩
  | 73 => ⟨S8192, .f32⟩
  | 74 => ⟨S8192, .f32⟩
  | 75 => ⟨S_, .f32⟩
  | 76 => ⟨S262144, .f32⟩
  | 77 => ⟨S_, .f32⟩
  | 78 => ⟨S8192, .f32⟩
  | 79 => ⟨S262144x1, .i32⟩
  | 80 => ⟨S8192, .f32⟩
  | 81 => ⟨S_, .f32⟩
  | 82 => ⟨S_, .f32⟩
  | 83 => ⟨S8192, .f32⟩
  | 84 => ⟨S8192, .f32⟩
  | 85 => ⟨S_, .f32⟩
  | 86 => ⟨S8192, .f32⟩
  | 87 => ⟨S8192, .f32⟩
  | 88 => ⟨S8192x1, .f32⟩
  | 89 => ⟨S8192x64, .f32⟩
  | 90 => ⟨S8192x64, .f32⟩
  | 91 => ⟨S8192x16, .f32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S262144x1, .i32⟩
  | 100 => ⟨S262144x16, .f32⟩
  | 101 => ⟨S_, .f32⟩
  | 102 => ⟨S8192x16, .f32⟩
  | 103 => ⟨S262144x1, .i32⟩
  | 104 => ⟨S8192x16, .f32⟩
  | 105 => ⟨S8192x1, .f32⟩
  | 106 => ⟨S8192x16, .f32⟩
  | 107 => ⟨S8192x16, .f32⟩
  | 108 => ⟨S1x16, .f32⟩
  | 109 => ⟨S8192x16, .f32⟩
  | 110 => ⟨S8192x16, .f32⟩
  | 111 => ⟨S_, .f32⟩
  | 112 => ⟨S262144, .f32⟩
  | 113 => ⟨S_, .f32⟩
  | 114 => ⟨S8192, .f32⟩
  | 115 => ⟨S262144x1, .i32⟩
  | 116 => ⟨S8192, .f32⟩
  | 117 => ⟨S_, .f32⟩
  | 118 => ⟨S_, .f32⟩
  | 119 => ⟨S8192, .f32⟩
  | 120 => ⟨S8192, .f32⟩
  | 121 => ⟨S_, .f32⟩
  | 122 => ⟨S8192, .f32⟩
  | 123 => ⟨S8192, .f32⟩
  | 124 => ⟨S_, .f32⟩
  | 125 => ⟨S262144, .f32⟩
  | 126 => ⟨S_, .f32⟩
  | 127 => ⟨S8192, .f32⟩
  | _ => ⟨S8192x256, .f32⟩

abbrev hbmTy0_1 (i : Nat) : BufTy := match i % 128 with
  | 0 => ⟨S262144x1, .i32⟩
  | 1 => ⟨S8192, .f32⟩
  | 2 => ⟨S_, .f32⟩
  | 3 => ⟨S_, .f32⟩
  | 4 => ⟨S8192, .f32⟩
  | 5 => ⟨S8192, .f32⟩
  | 6 => ⟨S_, .f32⟩
  | 7 => ⟨S8192, .f32⟩
  | 8 => ⟨S8192, .f32⟩
  | 9 => ⟨S8192x1, .f32⟩
  | 10 => ⟨S8192x64, .f32⟩
  | 11 => ⟨S8192x64, .f32⟩
  | 12 => ⟨S8192x16, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x16, .f32⟩
  | 22 => ⟨S_, .f32⟩
  | 23 => ⟨S8192x16, .f32⟩
  | 24 => ⟨S262144x1, .i32⟩
  | 25 => ⟨S8192x16, .f32⟩
  | 26 => ⟨S8192x1, .f32⟩
  | 27 => ⟨S8192x16, .f32⟩
  | 28 => ⟨S8192x16, .f32⟩
  | 29 => ⟨S1x16, .f32⟩
  | 30 => ⟨S8192x16, .f32⟩
  | 31 => ⟨S8192x16, .f32⟩
  | 32 => ⟨S8192x16, .f32⟩
  | 33 => ⟨S8192x16, .f32⟩
  | 34 => ⟨S8192x16, .f32⟩
  | 35 => ⟨S16x8192, .f32⟩
  | 36 => ⟨S8192x8192, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S_, .f32⟩
  | 43 => ⟨S8192x8192, .f32⟩
  | 44 => ⟨S8192x8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call2_cst : Ref sig .tc := ⟨.hbm, 59, rfl⟩
abbrev main_call2_v0 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v39 : Ref sig .tc := ⟨.hbm, 71, rfl⟩
abbrev main_cst_12 : Ref sig .tc := ⟨.hbm, 72, rfl⟩
abbrev main_v40 : Ref sig .tc := ⟨.hbm, 73, rfl⟩
abbrev main_v41 : Ref sig .tc := ⟨.hbm, 74, rfl⟩
abbrev main_cst_13 : Ref sig .tc := ⟨.hbm, 75, rfl⟩
abbrev main_v42 : Ref sig .tc := ⟨.hbm, 76, rfl⟩
abbrev main_cst_14 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_15 : Ref sig .tc := ⟨.hbm, 81, rfl⟩
abbrev main_call4_v0 : Ref sig .tc := ⟨.hbm, 82, rfl⟩
abbrev main_call4_v1 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_17 : Ref sig .tc := ⟨.hbm, 92, rfl⟩
abbrev main_v53 : Ref sig .tc := ⟨.hbm, 93, rfl⟩
abbrev main_v54 : Ref sig .tc := ⟨.hbm, 94, rfl⟩
abbrev main_c_18 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_19 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_20 : Ref sig .tc := ⟨.hbm, 111, rfl⟩
abbrev main_v69 : Ref sig .tc := ⟨.hbm, 112, rfl⟩
abbrev main_cst_21 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_22 : Ref sig .tc := ⟨.hbm, 117, rfl⟩
abbrev main_call5_v0 : Ref sig .tc := ⟨.hbm, 118, rfl⟩
abbrev main_call5_v1 : Ref sig .tc := ⟨.hbm, 119, rfl⟩
abbrev main_v73 : Ref sig .tc := ⟨.hbm, 120, rfl⟩
abbrev main_cst_23 : Ref sig .tc := ⟨.hbm, 121, rfl⟩
abbrev main_v74 : Ref sig .tc := ⟨.hbm, 122, rfl⟩
abbrev main_v75 : Ref sig .tc := ⟨.hbm, 123, rfl⟩
abbrev main_cst_24 : Ref sig .tc := ⟨.hbm, 124, rfl⟩
abbrev main_v76 : Ref sig .tc := ⟨.hbm, 125, rfl⟩
abbrev main_cst_25 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_26 : Ref sig .tc := ⟨.hbm, 130, rfl⟩
abbrev main_call6_v0 : Ref sig .tc := ⟨.hbm, 131, rfl⟩
abbrev main_call6_v1 : Ref sig .tc := ⟨.hbm, 132, rfl⟩
abbrev main_v80 : Ref sig .tc := ⟨.hbm, 133, rfl⟩
abbrev main_cst_27 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_28 : Ref sig .tc := ⟨.hbm, 141, rfl⟩
abbrev main_v87 : Ref sig .tc := ⟨.hbm, 142, rfl⟩
abbrev main_v88 : Ref sig .tc := ⟨.hbm, 143, rfl⟩
abbrev main_c_29 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_30 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_31 : Ref sig .tc := ⟨.hbm, 167, rfl⟩
abbrev main_v110 : Ref sig .tc := ⟨.hbm, 168, rfl⟩
abbrev main_v111 : Ref sig .tc := ⟨.hbm, 169, rfl⟩
abbrev main_cst_32 : Ref sig .tc := ⟨.hbm, 170, rfl⟩
abbrev main_v112 : Ref sig .tc := ⟨.hbm, 171, rfl⟩
abbrev main_v113 : Ref sig .tc := ⟨.hbm, 172, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x16 : S_.BroadcastsInDim S8192x16 (![] : Fin 0 → Fin S8192x16.rank)
  bcast_S8192x1_S8192x16_0_1 : S8192x1.BroadcastsInDim S8192x16 (![0, 1] : Fin 2 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  transposes_S8192x16_S16x8192_1_0 : S8192x16.Transposes [1, 0] S16x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x16_S8192x16_1_0_0_1_n_n_wf : DotDims.WF S8192x64 S64x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x8192_S8192x8192_1_0_0_1_n_n_wf : DotDims.WF S8192x16 S16x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.LibScatterRows.lean ====
/-
  A scatter that ADDS whole rows, read at one element, for any extents.

  The operand is a table `[N, K]`, the updates are `R` rows `[R, K]`, and the scatter indices are a column `[R, 1]`:
  update row `e` is added into the operand's row whose number is the start index `idx (e, 0)`, read as a signed
  integer and NOT clamped (a row that falls outside the table is dropped). Column `c` of an update row goes to column
  `c` of the table and to no other. So over the extended reals the result at `(p, c)` is the operand's entry there
  plus the sum, over the update rows `e` whose start index is `p`, of `upd (e, c)`: an entry of the result depends
  on its own column of the updates alone.
-/
import Idealize.ShloMosaic.Lib.ValueIdx
import Idealize.ShloMosaic.PureOps.Ideal.Laws

noncomputable section

open scoped BigOperators

namespace Cert.LibScatterRows

open Idealize.ShloMosaic Idealize.ShloMosaic.ValueIdx

/-- dimension numbers of `x.at[idx].add(upd)` by rows, for `x : [N, K]`, `upd : [R, K]`, at a column of start indices `[R, 1]` -/
abbrev rowDims (N K R : Nat) (wf : ScatterDims.WF ⟨2, ![N, K]⟩ ⟨2, ![R, 1]⟩ ⟨2, ![R, K]⟩ [1] [0] [0] 1) :
    ScatterDims ⟨2, ![N, K]⟩ ⟨2, ![R, 1]⟩ ⟨2, ![R, K]⟩ where
  updateWindowDims := [1]
  insertedWindowDims := [0]
  scatterDimsToOperandDims := [0]
  indexVectorDim := 1
  wf := wf

variable {N K R w : Nat} (wf : ScatterDims.WF ⟨2, ![N, K]⟩ ⟨2, ![R, 1]⟩ ⟨2, ![R, K]⟩ [1] [0] [0] 1)

/-- On the row axis the window starts at the update row's start index, read signed. -/
theorem start_row (idx : IVec ⟨2, ![R, 1]⟩ w) (e : Fin R) (c : Fin K) :
    (rowDims N K R wf).start (ix2 e c) idx 0 = (idx (ix2 e (0 : Fin 1))).toInt := by
  unfold ScatterDims.start
  rw [dif_pos (show (0 : Fin 2) ∈ (rowDims N K R wf).scatterDimsToOperandDims from List.mem_singleton.mpr rfl)]
  have hsi : (rowDims N K R wf).siIdx (ix2 e c) ⟨List.idxOf (0 : Fin 2) (rowDims N K R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0: no start index names that axis. -/
theorem start_col (idx : IVec ⟨2, ![R, 1]⟩ w) (e : Fin R) (c : Fin K) :
    (rowDims N K R wf).start (ix2 e c) idx 1 = 0 := by
  unfold ScatterDims.start
  rw [dif_neg (fun h => absurd (List.mem_singleton.mp h) (by decide : ¬ (1 : Fin 2) = 0))]

theorem sKept_eq : (rowDims N K R wf).sKept = [(1 : Fin 2)] := rfl

/-- The row axis is inserted: the window has no extent there. -/
theorem window_row (e : Fin R) (c : Fin K) : (rowDims N K R wf).window (ix2 e c) 0 = 0 := by
  unfold ScatterDims.window
  rw [dif_neg (by rw [sKept_eq]; exact fun h => absurd (List.mem_singleton.mp h) (by decide : ¬ (0 : Fin 2) = 1))]

/-- On the column axis the window coordinate is the update's own column. -/
theorem window_col (e : Fin R) (c : Fin K) : (rowDims N K R wf).window (ix2 e c) 1 = c.val := by
  unfold ScatterDims.window
  rw [dif_pos (by rw [sKept_eq]; exact List.mem_singleton.mpr rfl)]
  have hidx : List.idxOf (1 : Fin 2) (rowDims N K R wf).sKept = 0 := by rw [sKept_eq]; decide
  simp only [hidx]
  rfl

/-- Update element `(e, c)` lands on `(p, c')` exactly when its row's start index is `p` and `c' = c`. -/
theorem resultIdx_row (idx : IVec ⟨2, ![R, 1]⟩ w) (e : Fin R) (c : Fin K) (p : Fin N) (c' : Fin K) :
    (rowDims N K R wf).resultIdx? (ix2 e c) idx = some (ix2 p c')
      ↔ (idx (ix2 e (0 : Fin 1))).toInt = (p.val : Int) ∧ c = c' := by
  have s0 := start_row wf idx e c
  have s1 := start_col wf idx e c
  have w0 := window_row wf e c
  have w1 := window_col wf e c
  unfold ScatterDims.resultIdx?
  by_cases h : ∀ a, 0 ≤ (rowDims N K R wf).start (ix2 e c) idx a + (rowDims N K R wf).window (ix2 e c) a ∧
      (rowDims N K R wf).start (ix2 e c) idx a + (rowDims N K R wf).window (ix2 e c) a < (⟨2, ![N, K]⟩ : Shape).size a
  · rw [dif_pos h]
    constructor
    · intro heq
      have heq' := Option.some.inj heq
      have e0 := congrArg (fun q : (⟨2, ![N, K]⟩ : Shape).Idx => (q 0).val) heq'
      have e1 := congrArg (fun q : (⟨2, ![N, K]⟩ : Shape).Idx => (q 1).val) heq'
      have h0 := h 0
      have h1 := h 1
      simp only [s0, s1, w0, w1] at e0 e1 h0 h1
      have e0' : ((idx (ix2 e (0 : Fin 1))).toInt + ((0 : Nat) : Int)).toNat = p.val := e0
      have e1' : ((0 : Int) + (c.val : Int)).toNat = c'.val := e1
      refine ⟨by omega, Fin.ext (by omega)⟩
    · rintro ⟨hp, rfl⟩
      congr 1
      funext a
      refine Fin.ext ?_
      match a with
      | ⟨0, _⟩ =>
        show ((rowDims N K R wf).start (ix2 e c) idx 0 + (rowDims N K R wf).window (ix2 e c) 0).toNat = p.val
        rw [s0, w0]; omega
      | ⟨1, _⟩ =>
        show ((rowDims N K R wf).start (ix2 e c) idx 1 + (rowDims N K R wf).window (ix2 e c) 1).toNat = c.val
        rw [s1, w1]; omega
  · rw [dif_neg h]
    constructor
    · intro heq; exact absurd heq (by simp)
    · rintro ⟨hp, rfl⟩
      exfalso; apply h
      intro a
      match a with
      | ⟨0, _⟩ =>
        show 0 ≤ (rowDims N K R wf).start (ix2 e c) idx 0 + (rowDims N K R wf).window (ix2 e c) 0 ∧
          (rowDims N K R wf).start (ix2 e c) idx 0 + (rowDims N K R wf).window (ix2 e c) 0 < (N : Int)
        rw [s0, w0]; have := p.isLt; omega
      | ⟨1, _⟩ =>
        show 0 ≤ (rowDims N K R wf).start (ix2 e c) idx 1 + (rowDims N K R wf).window (ix2 e c) 1 ∧
          (rowDims N K R wf).start (ix2 e c) idx 1 + (rowDims N K R wf).window (ix2 e c) 1 < (K : Int)
        rw [s1, w1]; have := c.isLt; omega

/-- The accumulating scatter of rows read at `(p, c)`: the operand's entry plus the sum of column `c` of the update
    rows whose start index is `p`. -/
theorem scatterAdd_row_apply {φ : FTy} (x : FVec Ideal ⟨2, ![N, K]⟩ φ) (idx : IVec ⟨2, ![R, 1]⟩ w)
    (upd : FVec Ideal ⟨2, ![R, K]⟩ φ) (p : Fin N) (c : Fin K) :
    Host.scatterAdd (rowDims N K R wf) x idx upd (ix2 p c)
      = x (ix2 p c) + ∑ e ∈ Finset.univ.filter (fun e : Fin R => (idx (ix2 e (0 : Fin 1))).toInt = (p.val : Int)),
          upd (ix2 e c) := by
  unfold Host.scatterAdd
  rw [Ideal.hostScatterAdd_def]
  unfold Ideal.hostScatterAdd
  congr 1
  refine Finset.sum_nbij' (fun j => j 0) (fun e => ix2 e c) ?_ ?_ ?_ ?_ ?_
  · intro j hj
    obtain ⟨a, b, rfl⟩ : ∃ (a : Fin R) (b : Fin K), j = ix2 a b := ⟨j 0, j 1, eq_ix2 j⟩
    have hj' := (Finset.mem_filter.1 hj).2
    exact Finset.mem_filter.2 ⟨Finset.mem_univ _, ((resultIdx_row wf idx a b p c).1 hj').1⟩
  · intro e he
    have he' := (Finset.mem_filter.1 he).2
    exact Finset.mem_filter.2 ⟨Finset.mem_univ _, (resultIdx_row wf idx e c p c).2 ⟨he', rfl⟩⟩
  · intro j hj
    obtain ⟨a, b, rfl⟩ : ∃ (a : Fin R) (b : Fin K), j = ix2 a b := ⟨j 0, j 1, eq_ix2 j⟩
    have hj' := (Finset.mem_filter.1 hj).2
    obtain rfl := ((resultIdx_row wf idx a b p c).1 hj').2
    rfl
  · intro e _
    rfl
  · intro j hj
    obtain ⟨a, b, rfl⟩ : ∃ (a : Fin R) (b : Fin K), j = ix2 a b := ⟨j 0, j 1, eq_ix2 j⟩
    have hj' := (Finset.mem_filter.1 hj).2
    obtain rfl := ((resultIdx_row wf idx a b p c).1 hj').2
    rfl

end Cert.LibScatterRows

end
-- ==== Proof.LibTake.lean ====
/-
  Three facts about array operations read at one element, for any extents.

  A gather with one start index per result row reads, on the gathered axis, the start index taken as a
  signed integer and clamped into the operand's rows: the start index is clamped to `[0, N - 1]` where `N`
  is the number of rows (the slice has one row), and on an axis that is copied whole (an offset axis) it
  reads the result's own coordinate. Stated for a flat operand `[N]` (result `[R]`) and for a table `[N, K]`
  whose rows are copied whole (result `[R, K]`); the start indices are a column `[R, 1]`.

  A reduction by `and` over an axis of extent one, from the bit 1, keeps the one bit of each row: the
  operand indices that reduce into row `i` all have second coordinate 0, so every bit met is the row's.
-/
import Idealize.ShloMosaic.Lib.ValueIdx
import Idealize.ShloMosaic.Lib.ReduceAll
import Idealize.ShloMosaic.PureOps.Reduce

namespace Cert.LibTake

open Idealize.ShloMosaic Idealize.ShloMosaic.ValueIdx

/-- dimension numbers of x[idx] for a flat x : [N] at a column of start indices [R,1] -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (i : Fin R) :
    Host.gather (vecDims N R wf) x idx (ix1 i) = x (ix1 ⟨min (idx (ix2 i (0 : Fin 1))).toInt.toNat (N - 1), by omega⟩) := by
  unfold Host.gather
  congr 1
  funext a
  obtain rfl : a = 0 := Subsingleton.elim _ _
  refine Fin.ext ?_
  show (vecDims N R wf).start (ix1 i) idx 0 + (vecDims N R wf).batchCoord (ix1 i) 0 + (vecDims N R wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 i) ⟨List.idxOf (0 : Fin 1) (vecDims N R wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- dimension numbers of x[idx] (rows) for x : [N,K] at a column of start indices [R,1] -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

theorem gather_row_apply {α : Type} {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (i : Fin R) (k : Fin K) :
    Host.gather (rowDims N K R wf) x idx (ix2 i k) = x (ix2 ⟨min (idx (ix2 i (0 : Fin 1))).toInt.toNat (N - 1), by omega⟩ k) := by
  unfold Host.gather
  congr 1
  funext a
  refine Fin.ext ?_
  show (rowDims N K R wf).start (ix2 i k) idx a + (rowDims N K R wf).batchCoord (ix2 i k) a + (rowDims N K R wf).offCoord (ix2 i k) a = _
  rw [GatherDims.batchCoord_eq_zero _ _ _ List.not_mem_nil]
  have ha : a = (0 : Fin 2) ∨ a = (1 : Fin 2) := by
    rcases a with ⟨v, hv⟩
    have hv' : v < 2 := hv
    interval_cases v
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R wf).startIndexMap from List.mem_singleton.mpr rfl)]
    have hsi : (rowDims N K R wf).siIdx (ix2 i k) ⟨List.idxOf (0 : Fin 2) (rowDims N K R wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  · have h1 : (1 : Fin 2) ∉ (rowDims N K R wf).startIndexMap := by
      intro h; exact absurd (List.mem_singleton.mp h) (by decide : ¬ (1 : Fin 2) = 0)
    unfold GatherDims.start
    rw [dif_neg h1]
    have hk : (1 : Fin 2) ∈ (rowDims N K R wf).sKept :=
      (GatherDims.mem_sKept _ _).mpr
        ⟨fun h => absurd (List.mem_singleton.mp h) (by decide : ¬ (1 : Fin 2) = 0), List.not_mem_nil⟩
    unfold GatherDims.offCoord
    rw [dif_pos hk]
    have hsk : (rowDims N K R wf).sKept = [(1 : Fin 2)] := rfl
    have hidx : List.idxOf (1 : Fin 2) (rowDims N K R wf).sKept = 0 := by rw [hsk]; decide
    simp only [hidx]
    show 0 + 0 + k.val = k.val
    omega

/-- A left fold by `and` from the bit 1 over bits that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, hl => by
    have ha : f a = 1#1 := hl a List.mem_cons_self
    have h1 : IntOp.andi 1#1 (f a) = 1#1 := IntOp.andi_eq_one.2 ⟨rfl, ha⟩
    rw [List.foldl_cons, h1]
    exact foldl_andi_one f l fun n hn => hl n (List.mem_cons_of_mem _ hn)

/-- a reduce by 'and' over the unit second axis of an [R,1] array of bits, started from 1, is 1 at row i when the row's one bit is 1 -/
theorem reduce_andi_unit_axis {R : Nat} (x : IVec ⟨2, ![R, 1]⟩ 1) (init : IVec ⟨0, ![]⟩ 1)
    (h : (⟨2, ![R, 1]⟩ : Shape).ReducesTo [1] ⟨1, ![R]⟩) (hu : 0 < (⟨0, ![]⟩ : Shape).numel) (i : Fin R)
    (hinit : init ix0 = 1#1) (hx : x (ix2 i (0 : Fin 1)) = 1#1) :
    Host.reduce IntOp.andi x init h hu (ix1 i) = 1#1 := by
  rw [Host.reduce_eq_foldl]
  have h0 : init (Shape.Idx.first hu) = 1#1 := by rw [eq_ix0 (Shape.Idx.first hu)]; exact hinit
  rw [h0]
  refine foldl_andi_one x _ ?_
  intro j hj
  have hd : h.drop j = ix1 i := by simpa using (List.mem_filter.1 hj).2
  have e0 : (j 0).val = i.val := by
    have hc := congrArg (fun q : (⟨1, ![R]⟩ : Shape).Idx => (q 0).val) hd
    rw [← h.drop_apply_val_of_eq j 0 0 (show 0 < 1 from Nat.zero_lt_one) rfl]
    exact hc
  have hj0 : j = ix2 i (0 : Fin 1) := by
    funext a
    have ha : a = (0 : Fin 2) ∨ a = (1 : Fin 2) := by
      rcases a with ⟨v, hv⟩
      have hv' : v < 2 := hv
      interval_cases v
      · exact Or.inl rfl
      · exact Or.inr rfl
    rcases ha with rfl | rfl
    · exact Fin.ext e0
    · refine Fin.ext ?_
      have := idx2_lt1 j
      show (j 1).val = 0
      omega
  rw [hj0]
  exact hx

end Cert.LibTake
-- ==== Proof.LibAggregate.lean ====
/-
  Rows gathered out of a table and added back by rows, read one column at a time.

  Take a table `T : [N, C]`, copy out `R` of its rows (row `e` of the copy is the table's row named by the start
  index `src (e, 0)`, clamped into the table), and add the copied rows into an array `z : [N, C]`, copied row `e` into
  the row named by `dst (e, 0)`. Column `c` of the result is made of column `c` of `z` and column `c` of `T` and of
  nothing else. So if a WIDE table and a NARROW table agree along an embedding `ι` of the narrow columns into the wide
  ones (`Tw (r, ι c) = Tn (r, c)`), and so do the two arrays added into, then the two aggregates agree along `ι` too:
  the wide computation restricted to the columns `ι` picks IS the narrow computation.
-/
import proofs.«118191_j59631325938137_2_alg».proof.Proof.LibScatterRows
import proofs.«118191_j59631325938137_2_alg».proof.Proof.LibTake

noncomputable section

open scoped BigOperators

namespace Cert.LibAggregate

open Idealize.ShloMosaic Idealize.ShloMosaic.ValueIdx

/-- The aggregate of the wide table at column `ι c` is the aggregate of the narrow table at column `c`. -/
theorem aggregate_col {N R Cw Cn w w' : Nat} {φ : FTy} (hN : 0 < N) (ι : Fin Cn → Fin Cw)
    (gw : GatherDims.WF ⟨2, ![N, Cw]⟩ ⟨2, ![R, 1]⟩ ⟨2, ![R, Cw]⟩ [1] [0] [] [0] [] 1 ![1, Cw])
    (gn : GatherDims.WF ⟨2, ![N, Cn]⟩ ⟨2, ![R, 1]⟩ ⟨2, ![R, Cn]⟩ [1] [0] [] [0] [] 1 ![1, Cn])
    (sw : ScatterDims.WF ⟨2, ![N, Cw]⟩ ⟨2, ![R, 1]⟩ ⟨2, ![R, Cw]⟩ [1] [0] [0] 1)
    (sn : ScatterDims.WF ⟨2, ![N, Cn]⟩ ⟨2, ![R, 1]⟩ ⟨2, ![R, Cn]⟩ [1] [0] [0] 1)
    (Tw : FVec Ideal ⟨2, ![N, Cw]⟩ φ) (Tn : FVec Ideal ⟨2, ![N, Cn]⟩ φ)
    (hT : ∀ r c, Tw (ix2 r (ι c)) = Tn (ix2 r c))
    (zw : FVec Ideal ⟨2, ![N, Cw]⟩ φ) (zn : FVec Ideal ⟨2, ![N, Cn]⟩ φ)
    (hz : ∀ r c, zw (ix2 r (ι c)) = zn (ix2 r c))
    (src : IVec ⟨2, ![R, 1]⟩ w) (dst : IVec ⟨2, ![R, 1]⟩ w') (p : Fin N) (c : Fin Cn) :
    Host.scatterAdd (LibScatterRows.rowDims N Cw R sw) zw dst (Host.gather (LibTake.rowDims N Cw R gw) Tw src) (ix2 p (ι c))
      = Host.scatterAdd (LibScatterRows.rowDims N Cn R sn) zn dst (Host.gather (LibTake.rowDims N Cn R gn) Tn src) (ix2 p c) := by
  rw [LibScatterRows.scatterAdd_row_apply, LibScatterRows.scatterAdd_row_apply, hz]
  congr 1
  refine Finset.sum_congr rfl fun e _ => ?_
  rw [LibTake.gather_row_apply hN, LibTake.gather_row_apply hN, hT]

end Cert.LibAggregate

end
-- ==== Proof.LibHostDot.lean ====
/-
  A general lemma about the host's matrix product read at an index `(p, a)`.

  * A `dot_general` of `[n, K]` by `[K, A]` on the host, contracting the left operand's second axis with the right
    operand's first, holds at `(p, a)` the sum over `k` of `l (p, k) · r (k, a)` at the extended reals: the same plain
    sum a matrix product into a zero accumulator holds there, so the two agree entry by entry.
-/
import Idealize.ShloMosaic.Lib.ValueIdx
import Idealize.ShloMosaic.PureOps.Ideal.Laws

noncomputable section

namespace Cert.LibHostDot

open Idealize.ShloMosaic Idealize.ShloMosaic.ValueIdx

variable {φ₁ φ₂ : FTy}

/-- The host's plain matrix product read at `(p, a)`: the sum over the contracted coordinate `k` of
    `l (p, k) · r (k, a)`. The two facts `hl0`, `hr1` say that the kept coordinates of the operands' indices are the
    result's (they hold of every plain record, and are decided at a literal one). -/
theorem dotGeneral_plain_apply {n K A : ℕ} (D : DotDims ⟨2, ![n, K]⟩ ⟨2, ![K, A]⟩ ⟨2, ![n, A]⟩) (prec : Option ContractPrecision)
    (hlc : D.lhsContracting = [1]) (hrc : D.rhsContracting = [0])
    (hr : D.contr.rank = 1) (hs : D.contr.size ⟨0, by omega⟩ = K)
    (hl0 : ∀ j k, (D.lhsIdx j k 0).val = (j 0).val) (hr1 : ∀ j k, (D.rhsIdx j k 1).val = (j 1).val)
    (l : FVec Ideal ⟨2, ![n, K]⟩ φ₁) (r : FVec Ideal ⟨2, ![K, A]⟩ φ₂) (p : Fin n) (a : Fin A) :
    Host.dotGeneral D prec l r (ix2 p a) = ∑ k : Fin K, l (ix2 p k) * r (ix2 k a) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p a) ((contrEquiv1 D K hr hs).symm k) = ix2 p k := funext fun c => Fin.ext (by
    match c with
    | ⟨0, _⟩ => exact hl0 _ _
    | ⟨1, _⟩ => exact (D.lhsIdx_val_of_single hlc _ _).trans hk)
  have er : D.rhsIdx (ix2 p a) ((contrEquiv1 D K hr hs).symm k) = ix2 k a := funext fun c => Fin.ext (by
    match c with
    | ⟨0, _⟩ => exact (D.rhsIdx_val_of_single hrc _ _).trans hk
    | ⟨1, _⟩ => exact hr1 _ _)
  rw [el, er]

end Cert.LibHostDot

end
-- ==== Proof.Fused.lean ====
/-
  The encoder's second layer, computed once over concatenated weights or twice over the separate ones.

  One graph-convolution head sends the hidden rows `h : [8192, 64]` to
      head(W, b)(p, c) = ( Σ_{e : dst e = p}  Σ_k  h(src e, k) · ns(src e) · W(k, c) ) · nd(p) + b(c),
  the product with `W`, a copy of the rows the edges' sources name, their sum into the rows the edges' targets name,
  the scaling by the target's degree norm and the bias. Column `c` of a head is made of column `c` of `W` and entry
  `c` of `b` and of nothing else of them. So the ONE head over the concatenations `[W1 | W2] : [64, 32]` and
  `[b1 | b2] : [32]` has, in its columns 0 … 15, the head of `(W1, b1)`, and in its columns 16 … 31 the head of
  `(W2, b2)`: cutting the wide result in two gives the two narrow results, entry by entry, over the extended reals and
  with no condition on the entries (no sum is re-associated and nothing is distributed: each entry is the same sum of
  the same products on both sides). The latent rows `z = mean + noise · exp(log_std)` built from either are equal.
-/
import proofs.«118191_j59631325938137_2_alg».proof.Proof.Gen.KernelIdeal
import proofs.«118191_j59631325938137_2_alg».proof.Proof.Gen.ReferenceIdeal
import proofs.«118191_j59631325938137_2_alg».proof.Proof.LibAggregate
import proofs.«118191_j59631325938137_2_alg».proof.Proof.LibHostDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Fused

open Idealize.ShloMosaic Idealize.ShloMosaic.ValueIdx

/-! ## Broadcasts read at an index -/

section Reads

variable {α : Type}

/-- A scalar spread over a matrix reads the scalar everywhere. -/
theorem splat2_apply {N C : Nat} (h : (⟨0, ![]⟩ : Shape).BroadcastsInDim ⟨2, ![N, C]⟩ ![])
    (x : (⟨0, ![]⟩ : Shape).Idx → α) (p : Fin N) (c : Fin C) :
    broadcastInDim ⟨2, ![N, C]⟩ ![] h x (ix2 p c) = x ix0 :=
  broadcastInDim_apply _ h x (ix2 p c) ix0 (fun a => a.elim0)

/-- A vector over the rows, made a column and then spread along the columns, reads at `(p, c)` its entry `p`. -/
theorem colspread_apply {C : Nat}
    (h1 : (⟨1, ![8192]⟩ : Shape).BroadcastsInDim ⟨2, ![8192, 1]⟩ ![0])
    (h2 : (⟨2, ![8192, 1]⟩ : Shape).BroadcastsInDim ⟨2, ![8192, C]⟩ ![0, 1])
    (v : (⟨1, ![8192]⟩ : Shape).Idx → α) (p : Fin 8192) (c : Fin C) :
    broadcastInDim ⟨2, ![8192, C]⟩ ![0, 1] h2 (broadcastInDim ⟨2, ![8192, 1]⟩ ![0] h1 v) (ix2 p c) = v (ix1 p) := by
  rw [broadcastInDim_apply _ h2 _ (ix2 p c) (ix2 p (0 : Fin 1)) (fun a => by
    match a with
    | ⟨0, _⟩ => show p.val = if (8192 : Nat) = 1 then 0 else p.val; rw [if_neg (by decide)]
    | ⟨1, _⟩ => show 0 = if (1 : Nat) = 1 then 0 else c.val; rw [if_pos rfl])]
  exact broadcastInDim_apply _ h1 v (ix2 p (0 : Fin 1)) (ix1 p) (fun a => by
    match a with
    | ⟨0, _⟩ => show p.val = if (8192 : Nat) = 1 then 0 else p.val; rw [if_neg (by decide)])

/-- A vector over the columns, made a row and then spread along the rows, reads at `(p, c)` its entry `c`. -/
theorem rowspread_apply {C : Nat} (hC : C ≠ 1)
    (h1 : (⟨1, ![C]⟩ : Shape).BroadcastsInDim ⟨2, ![1, C]⟩ ![1])
    (h2 : (⟨2, ![1, C]⟩ : Shape).BroadcastsInDim ⟨2, ![8192, C]⟩ ![0, 1])
    (b : (⟨1, ![C]⟩ : Shape).Idx → α) (p : Fin 8192) (c : Fin C) :
    broadcastInDim ⟨2, ![8192, C]⟩ ![0, 1] h2 (broadcastInDim ⟨2, ![1, C]⟩ ![1] h1 b) (ix2 p c) = b (ix1 c) := by
  rw [broadcastInDim_apply _ h2 _ (ix2 p c) (ix2 (0 : Fin 1) c) (fun a => by
    match a with
    | ⟨0, _⟩ => show 0 = if (1 : Nat) = 1 then 0 else p.val; rw [if_pos rfl]
    | ⟨1, _⟩ => show c.val = if C = 1 then 0 else c.val; rw [if_neg hC])]
  exact broadcastInDim_apply _ h1 b (ix2 (0 : Fin 1) c) (ix1 c) (fun a => by
    match a with
    | ⟨0, _⟩ => show c.val = if C = 1 then 0 else c.val; rw [if_neg hC])

end Reads

/-! ## The two embeddings of 16 columns into 32 -/

/-- the first half of the 32 columns -/
def lo (c : Fin 16) : Fin 32 := ⟨c.val, by omega⟩
/-- the second half -/
def hi (c : Fin 16) : Fin 32 := ⟨16 + c.val, by omega⟩

/-! ## The kernel's side: one head over the concatenated weights -/

namespace Wide

open Cert.KernelIdeal Cert.KernelIdeal.Facts₀

/-- The concatenated weights `[W1 | W2]`. -/
def Wcat (W1 W2 : FVec Ideal S64x16 .f32) : FVec Ideal S64x32 .f32 :=
  concatenate S64x32 1 [⟨S64x16, W1⟩, ⟨S64x16, W2⟩] concatenates_S64x16_S64x16_S64x32_d1

/-- The concatenated biases `[b1 | b2]`. -/
def bcat (b1 b2 : FVec Ideal S16 .f32) : FVec Ideal S32 .f32 :=
  concatenate S32 0 [⟨S16, b1⟩, ⟨S16, b2⟩] concatenates_S16_S16_S32_d0

/-- The hidden rows scaled by the source's degree norm. -/
def scaled (h : FVec Ideal S8192x64 .f32) (ns : FVec Ideal S8192 .f32) : FVec Ideal S8192x64 .f32 :=
  mulf h (broadcastInDim S8192x64 ![0, 1] bcast_S8192x1_S8192x64_0_1 (broadcastInDim S8192x1 ![0] bcast_S8192_S8192x1_0 ns))

/-- The head over the concatenations: all 32 columns. -/
def full (h : FVec Ideal S8192x64 .f32) (ns nd : FVec Ideal S8192 .f32)
    (srcC dstC : (⟨S262144x1, .i32⟩ : BufTy).Contents (Elt Ideal))
    (W1 W2 : FVec Ideal S64x16 .f32) (b1 b2 : FVec Ideal S16 .f32) : FVec Ideal S8192x32 .f32 :=
  addf
    (mulf
      (Host.scatterAdd scatter_S8192x32_S262144x1_S262144x32_1_0_0_1
        (broadcastInDim S8192x32 ![] bcast_S_S8192x32 (constant (F := Ideal) S_ .f32 0x00000000#32))
        dstC
        (Host.gather gather_S8192x32_S262144x1_S262144x32_1_0_n_n_0_1_132
          (Host.dotGeneral dot_S8192x64_S64x32_S8192x32_1_0_0_1_n_n none (scaled h ns) (Wcat W1 W2))
          srcC))
      (broadcastInDim S8192x32 ![0, 1] bcast_S8192x1_S8192x32_0_1 (broadcastInDim S8192x1 ![0] bcast_S8192_S8192x1_0 nd)))
    (broadcastInDim S8192x32 ![0, 1] bcast_S1x32_S8192x32_0_1 (broadcastInDim S1x32 ![1] bcast_S32_S1x32_1 (bcat b1 b2)))

/-- The latent rows from the wide head: its first 16 columns plus the noise times the exponential of its last 16. -/
def z (fl : FVec Ideal S8192x32 .f32) (noise : FVec Ideal S8192x16 .f32) : FVec Ideal S8192x16 .f32 :=
  addf (extractStridedSlice S8192x16 ![0, 0] fl slices_S8192x32_S8192x16_0_0)
    (mulf noise (Host.exp (F := Ideal) (extractStridedSlice S8192x16 ![0, 16] fl slices_S8192x32_S8192x16_0_16)))

theorem Wcat_lo (W1 W2 : FVec Ideal S64x16 .f32) (k : Fin 64) (c : Fin 16) : Wcat W1 W2 (ix2 k (lo c)) = W1 (ix2 k c) := by
  unfold Wcat
  exact concatenate_pair_apply_left (1 : Fin 2) W1 W2 concatenates_S64x16_S64x16_S64x32_d1 (ix2 k (lo c)) rfl (ix2 k c)
    (fun b => by match b with | ⟨0, _⟩ => rfl | ⟨1, _⟩ => rfl)

theorem Wcat_hi (W1 W2 : FVec Ideal S64x16 .f32) (k : Fin 64) (c : Fin 16) : Wcat W1 W2 (ix2 k (hi c)) = W2 (ix2 k c) := by
  unfold Wcat
  exact concatenate_pair_apply_right (1 : Fin 2) W1 W2 concatenates_S64x16_S64x16_S64x32_d1 (ix2 k (hi c)) rfl rfl (ix2 k c)
    (fun b hb => by match b with | ⟨0, _⟩ => rfl | ⟨1, _⟩ => exact absurd rfl hb)
    (by show c.val + 16 = 16 + c.val; omega)

theorem bcat_lo (b1 b2 : FVec Ideal S16 .f32) (c : Fin 16) : bcat b1 b2 (ix1 (lo c)) = b1 (ix1 c) := by
  unfold bcat
  exact concatenate_pair_apply_left (0 : Fin 1) b1 b2 concatenates_S16_S16_S32_d0 (ix1 (lo c)) rfl (ix1 c)
    (fun b => by match b with | ⟨0, _⟩ => rfl)

theorem bcat_hi (b1 b2 : FVec Ideal S16 .f32) (c : Fin 16) : bcat b1 b2 (ix1 (hi c)) = b2 (ix1 c) := by
  unfold bcat
  exact concatenate_pair_apply_right (0 : Fin 1) b1 b2 concatenates_S16_S16_S32_d0 (ix1 (hi c)) rfl rfl (ix1 c)
    (fun b hb => by match b with | ⟨0, _⟩ => exact absurd rfl hb)
    (by show c.val + 16 = 16 + c.val; omega)

/-- The wide product at `(r, c)`: the plain sum over the 64 hidden features. -/
theorem dot_apply (A : FVec Ideal S8192x64 .f32) (W : FVec Ideal S64x32 .f32) (r : Fin 8192) (c : Fin 32) :
    Host.dotGeneral dot_S8192x64_S64x32_S8192x32_1_0_0_1_n_n none A W (ix2 r c) = ∑ k : Fin 64, A (ix2 r k) * W (ix2 k c) :=
  LibHostDot.dotGeneral_plain_apply dot_S8192x64_S64x32_S8192x32_1_0_0_1_n_n none rfl rfl rfl rfl
    (fun j k => by
      unfold DotDims.lhsIdx
      rw [dif_neg (show ¬(0 : Fin S8192x64.rank) ∈ dot_S8192x64_S64x32_S8192x32_1_0_0_1_n_n.lhsBatch by decide),
        dif_pos (show (0 : Fin S8192x64.rank) ∈ dot_S8192x64_S64x32_S8192x32_1_0_0_1_n_n.lhsNonContracting by decide)]
      rfl)
    (fun j k => by
      unfold DotDims.rhsIdx
      rw [dif_neg (show ¬(1 : Fin S64x32.rank) ∈ dot_S8192x64_S64x32_S8192x32_1_0_0_1_n_n.rhsBatch by decide),
        dif_pos (show (1 : Fin S64x32.rank) ∈ dot_S8192x64_S64x32_S8192x32_1_0_0_1_n_n.rhsNonContracting by decide)]
      rfl)
    A W r c

end Wide

/-! ## The reference's side: one head per weight matrix -/

namespace Narrow

open Cert.ReferenceIdeal Cert.ReferenceIdeal.Facts₀

/-- The hidden rows scaled by the source's degree norm. -/
def scaled (h : FVec Ideal S8192x64 .f32) (ns : FVec Ideal S8192 .f32) : FVec Ideal S8192x64 .f32 :=
  mulf h (broadcastInDim S8192x64 ![0, 1] bcast_S8192x1_S8192x64_0_1 (broadcastInDim S8192x1 ![0] bcast_S8192_S8192x1_0 ns))

/-- One head: 16 columns. -/
def head (h : FVec Ideal S8192x64 .f32) (ns nd : FVec Ideal S8192 .f32)
    (srcC dstC : (⟨S262144x1, .i32⟩ : BufTy).Contents (Elt Ideal))
    (W : FVec Ideal S64x16 .f32) (b : FVec Ideal S16 .f32) : FVec Ideal S8192x16 .f32 :=
  addf
    (mulf
      (Host.scatterAdd scatter_S8192x16_S262144x1_S262144x16_1_0_0_1
        (broadcastInDim S8192x16 ![] bcast_S_S8192x16 (constant (F := Ideal) S_ .f32 0x00000000#32))
        dstC
        (Host.gather gather_S8192x16_S262144x1_S262144x16_1_0_n_n_0_1_116
          (Host.dotGeneral dot_S8192x64_S64x16_S8192x16_1_0_0_1_n_n none (scaled h ns) W)
          srcC))
      (broadcastInDim S8192x16 ![0, 1] bcast_S8192x1_S8192x16_0_1 (broadcastInDim S8192x1 ![0] bcast_S8192_S8192x1_0 nd)))
    (broadcastInDim S8192x16 ![0, 1] bcast_S1x16_S8192x16_0_1 (broadcastInDim S1x16 ![1] bcast_S16_S1x16_1 b))

/-- The latent rows from the two heads. -/
def z (mean logstd noise : FVec Ideal S8192x16 .f32) : FVec Ideal S8192x16 .f32 :=
  addf mean (mulf noise (Host.exp (F := Ideal) logstd))

/-- The narrow product at `(r, c)`: the plain sum over the 64 hidden features. -/
theorem dot_apply (A : FVec Ideal S8192x64 .f32) (W : FVec Ideal S64x16 .f32) (r : Fin 8192) (c : Fin 16) :
    Host.dotGeneral dot_S8192x64_S64x16_S8192x16_1_0_0_1_n_n none A W (ix2 r c) = ∑ k : Fin 64, A (ix2 r k) * W (ix2 k c) :=
  LibHostDot.dotGeneral_plain_apply dot_S8192x64_S64x16_S8192x16_1_0_0_1_n_n none rfl rfl rfl rfl
    (fun j k => by
      unfold DotDims.lhsIdx
      rw [dif_neg (show ¬(0 : Fin S8192x64.rank) ∈ dot_S8192x64_S64x16_S8192x16_1_0_0_1_n_n.lhsBatch by decide),
        dif_pos (show (0 : Fin S8192x64.rank) ∈ dot_S8192x64_S64x16_S8192x16_1_0_0_1_n_n.lhsNonContracting by decide)]
      rfl)
    (fun j k => by
      unfold DotDims.rhsIdx
      rw [dif_neg (show ¬(1 : Fin S64x16.rank) ∈ dot_S8192x64_S64x16_S8192x16_1_0_0_1_n_n.rhsBatch by decide),
        dif_pos (show (1 : Fin S64x16.rank) ∈ dot_S8192x64_S64x16_S8192x16_1_0_0_1_n_n.rhsNonContracting by decide)]
      rfl)
    A W r c

end Narrow

/-! ## A column of the wide head is a column of a narrow one -/

/-- The two spellings of the scaled hidden rows are one array. -/
theorem scaled_eq (h : FVec Ideal ⟨2, ![8192, 64]⟩ .f32) (ns : FVec Ideal ⟨1, ![8192]⟩ .f32) :
    Wide.scaled h ns = Narrow.scaled h ns := rfl

/-- If the wide weights and bias restrict along `ι` to `(W, b)`, the wide head restricts along `ι` to the head of `(W, b)`. -/
theorem full_col (ι : Fin 16 → Fin 32)
    (h : FVec Ideal ⟨2, ![8192, 64]⟩ .f32) (ns nd : FVec Ideal ⟨1, ![8192]⟩ .f32)
    (srcC dstC : IVec ⟨2, ![262144, 1]⟩ 32)
    (W1 W2 W : FVec Ideal ⟨2, ![64, 16]⟩ .f32) (b1 b2 b : FVec Ideal ⟨1, ![16]⟩ .f32)
    (hW : ∀ k c, Wide.Wcat W1 W2 (ix2 k (ι c)) = W (ix2 k c))
    (hb : ∀ c, Wide.bcat b1 b2 (ix1 (ι c)) = b (ix1 c))
    (p : Fin 8192) (c : Fin 16) :
    Wide.full h ns nd srcC dstC W1 W2 b1 b2 (ix2 p (ι c)) = Narrow.head h ns nd srcC dstC W b (ix2 p c) := by
  unfold Wide.full Narrow.head
  show FloatOps.addf (FloatOps.mulf (Host.scatterAdd _ _ _ _ (ix2 p (ι c))) (broadcastInDim _ _ _ _ (ix2 p (ι c)))) (broadcastInDim _ _ _ _ (ix2 p (ι c)))
    = FloatOps.addf (FloatOps.mulf (Host.scatterAdd _ _ _ _ (ix2 p c)) (broadcastInDim _ _ _ _ (ix2 p c))) (broadcastInDim _ _ _ _ (ix2 p c))
  have e1 := LibAggregate.aggregate_col (N := 8192) (R := 262144) (Cw := 32) (Cn := 16) (φ := .f32) (by decide) ι
    Cert.KernelIdeal.Facts₀.gather_S8192x32_S262144x1_S262144x32_1_0_n_n_0_1_132_wf
    Cert.ReferenceIdeal.Facts₀.gather_S8192x16_S262144x1_S262144x16_1_0_n_n_0_1_116_wf
    Cert.KernelIdeal.Facts₀.scatter_S8192x32_S262144x1_S262144x32_1_0_0_1_wf
    Cert.ReferenceIdeal.Facts₀.scatter_S8192x16_S262144x1_S262144x16_1_0_0_1_wf
    (Host.dotGeneral Cert.KernelIdeal.dot_S8192x64_S64x32_S8192x32_1_0_0_1_n_n none (Wide.scaled h ns) (Wide.Wcat W1 W2))
    (Host.dotGeneral Cert.ReferenceIdeal.dot_S8192x64_S64x16_S8192x16_1_0_0_1_n_n none (Narrow.scaled h ns) W)
    (fun r c => by
      rw [Wide.dot_apply, Narrow.dot_apply, scaled_eq]
      exact Finset.sum_congr rfl fun k _ => by rw [hW])
    (broadcastInDim ⟨2, ![8192, 32]⟩ ![] Cert.KernelIdeal.Facts₀.bcast_S_S8192x32 (constant (F := Ideal) ⟨0, ![]⟩ .f32 0x00000000#32))
    (broadcastInDim ⟨2, ![8192, 16]⟩ ![] Cert.ReferenceIdeal.Facts₀.bcast_S_S8192x16 (constant (F := Ideal) ⟨0, ![]⟩ .f32 0x00000000#32))
    (fun r c => by rw [splat2_apply, splat2_apply])
    srcC dstC p c
  have e2 : broadcastInDim ⟨2, ![8192, 32]⟩ ![0, 1] Cert.KernelIdeal.Facts₀.bcast_S8192x1_S8192x32_0_1
        (broadcastInDim ⟨2, ![8192, 1]⟩ ![0] Cert.KernelIdeal.Facts₀.bcast_S8192_S8192x1_0 nd) (ix2 p (ι c))
      = broadcastInDim ⟨2, ![8192, 16]⟩ ![0, 1] Cert.ReferenceIdeal.Facts₀.bcast_S8192x1_S8192x16_0_1
        (broadcastInDim ⟨2, ![8192, 1]⟩ ![0] Cert.ReferenceIdeal.Facts₀.bcast_S8192_S8192x1_0 nd) (ix2 p c) := by
    rw [colspread_apply, colspread_apply]
  have e3 : broadcastInDim ⟨2, ![8192, 32]⟩ ![0, 1] Cert.KernelIdeal.Facts₀.bcast_S1x32_S8192x32_0_1
        (broadcastInDim ⟨2, ![1, 32]⟩ ![1] Cert.KernelIdeal.Facts₀.bcast_S32_S1x32_1 (Wide.bcat b1 b2)) (ix2 p (ι c))
      = broadcastInDim ⟨2, ![8192, 16]⟩ ![0, 1] Cert.ReferenceIdeal.Facts₀.bcast_S1x16_S8192x16_0_1
        (broadcastInDim ⟨2, ![1, 16]⟩ ![1] Cert.ReferenceIdeal.Facts₀.bcast_S16_S1x16_1 b) (ix2 p c) := by
    rw [rowspread_apply (by decide), rowspread_apply (by decide), hb]
  exact congrArg₂ FloatOps.addf (congrArg₂ FloatOps.mulf e1 e2) e3

/-- THE LATENT ROWS: from the one wide head or from the two narrow heads, the same array. -/
theorem z_eq (h : FVec Ideal ⟨2, ![8192, 64]⟩ .f32) (ns nd : FVec Ideal ⟨1, ![8192]⟩ .f32)
    (srcC dstC : IVec ⟨2, ![262144, 1]⟩ 32)
    (W1 W2 : FVec Ideal ⟨2, ![64, 16]⟩ .f32) (b1 b2 : FVec Ideal ⟨1, ![16]⟩ .f32)
    (noise : FVec Ideal ⟨2, ![8192, 16]⟩ .f32) :
    Wide.z (Wide.full h ns nd srcC dstC W1 W2 b1 b2) noise
      = Narrow.z (Narrow.head h ns nd srcC dstC W1 b1) (Narrow.head h ns nd srcC dstC W2 b2) noise := by
  funext i
  obtain ⟨p, c, rfl⟩ : ∃ (p : Fin 8192) (c : Fin 16), i = ix2 p c := ⟨i 0, i 1, eq_ix2 i⟩
  unfold Wide.z Narrow.z
  show FloatOps.addf (extractStridedSlice _ _ _ _ (ix2 p c)) (FloatOps.mulf (noise (ix2 p c)) (FloatOps.hostUnary .exp (extractStridedSlice _ _ _ _ (ix2 p c))))
    = FloatOps.addf (Narrow.head h ns nd srcC dstC W1 b1 (ix2 p c)) (FloatOps.mulf (noise (ix2 p c)) (FloatOps.hostUnary .exp (Narrow.head h ns nd srcC dstC W2 b2 (ix2 p c))))
  rw [slice2_axis1_apply 0 _ Cert.KernelIdeal.Facts₀.slices_S8192x32_S8192x16_0_0 p c (lo c) (by show c.val = 0 + c.val; omega),
    slice2_axis1_apply 16 _ Cert.KernelIdeal.Facts₀.slices_S8192x32_S8192x16_0_16 p c (hi c) rfl,
    full_col lo h ns nd srcC dstC W1 W2 W1 b1 b2 b1 (Wide.Wcat_lo W1 W2) (Wide.bcat_lo b1 b2),
    full_col hi h ns nd srcC dstC W1 W2 W2 b1 b2 b2 (Wide.Wcat_hi W1 W2) (Wide.bcat_hi b1 b2)]

end Cert.Fused

end
-- ==== Proof.RefLatent.lean ====
/-
  The reference's latent rows are the two narrow heads over ONE set of shared quantities.

  The reference computes the source and target degree norms and the source index column three times (once per
  graph convolution), each time by the same operations of the same edge lists; the second and third copies are the
  first. So its mean is the head of `(W1, b1)` and its log-deviation the head of `(W2, b2)` over the same hidden rows,
  norms and index columns, and its latent rows are `mean + noise · exp (log-deviation)`.
-/
import proofs.«118191_j59631325938137_2_alg».proof.Proof.Gen.ReferenceIdeal.Read
import proofs.«118191_j59631325938137_2_alg».proof.Proof.Fused

set_option maxRecDepth 8192

noncomputable section

namespace Cert.RefLatent

open Idealize.ShloMosaic Cert.ReferenceIdeal Cert.ReferenceIdeal.Read

variable (x0 : (⟨S8192x256, .f32⟩ : BufTy).Contents (Elt Ideal)) (x1 x2 : (⟨S262144, .i32⟩ : BufTy).Contents (Elt Ideal))
  (x3 : (⟨S8192x16, .f32⟩ : BufTy).Contents (Elt Ideal)) (x4 : (⟨S256x64, .f32⟩ : BufTy).Contents (Elt Ideal))
  (x5 : (⟨S64, .f32⟩ : BufTy).Contents (Elt Ideal)) (x6 : (⟨S64x16, .f32⟩ : BufTy).Contents (Elt Ideal))
  (x7 : (⟨S16, .f32⟩ : BufTy).Contents (Elt Ideal)) (x8 : (⟨S64x16, .f32⟩ : BufTy).Contents (Elt Ideal))
  (x9 : (⟨S16, .f32⟩ : BufTy).Contents (Elt Ideal))

/-- The source degree norm recomputed for the second head is the first head's. -/
theorem ns_again : val_main_v75 (F := Ideal) x1 = val_main_v41 (F := Ideal) x1 := rfl
/-- The target degree norm recomputed for the second head is the first head's. -/
theorem nd_again : val_main_v82 (F := Ideal) x2 = val_main_v48 (F := Ideal) x2 := rfl
/-- The source index column recomputed for the second head is the first head's. -/
theorem src_again : val_main_v92 (F := Ideal) x1 = val_main_v58 (F := Ideal) x1 := rfl
/-- The target index column recomputed for the second head is the first head's. -/
theorem dst_again : val_main_v95 (F := Ideal) x2 = val_main_v61 (F := Ideal) x2 := rfl

/-- The reference's mean is the head of `(W1, b1)`. -/
theorem mean_eq : val_main_v68 (F := Ideal) x0 x1 x2 x4 x5 x6 x7
    = Fused.Narrow.head (val_main_v34 (F := Ideal) x0 x1 x2 x4 x5) (val_main_v41 (F := Ideal) x1) (val_main_v48 (F := Ideal) x2)
        (val_main_v58 (F := Ideal) x1) (val_main_v61 (F := Ideal) x2) x6 x7 := rfl

/-- The reference's log-deviation is the head of `(W2, b2)`, over the recomputed quantities … -/
theorem logstd_eq' : val_main_v102 (F := Ideal) x0 x1 x2 x4 x5 x8 x9
    = Fused.Narrow.head (val_main_v34 (F := Ideal) x0 x1 x2 x4 x5) (val_main_v75 (F := Ideal) x1) (val_main_v82 (F := Ideal) x2)
        (val_main_v92 (F := Ideal) x1) (val_main_v95 (F := Ideal) x2) x8 x9 := rfl

/-- … which are the first head's. -/
theorem logstd_eq : val_main_v102 (F := Ideal) x0 x1 x2 x4 x5 x8 x9
    = Fused.Narrow.head (val_main_v34 (F := Ideal) x0 x1 x2 x4 x5) (val_main_v41 (F := Ideal) x1) (val_main_v48 (F := Ideal) x2)
        (val_main_v58 (F := Ideal) x1) (val_main_v61 (F := Ideal) x2) x8 x9 := by
  rw [logstd_eq', ns_again, nd_again, src_again, dst_again]

/-- THE REFERENCE'S LATENT ROWS, over the shared quantities. -/
theorem latent_eq : val_main_v105 (F := Ideal) x0 x1 x2 x3 x4 x5 x6 x7 x8 x9
    = Fused.Narrow.z
        (Fused.Narrow.head (val_main_v34 (F := Ideal) x0 x1 x2 x4 x5) (val_main_v41 (F := Ideal) x1) (val_main_v48 (F := Ideal) x2)
          (val_main_v58 (F := Ideal) x1) (val_main_v61 (F := Ideal) x2) x6 x7)
        (Fused.Narrow.head (val_main_v34 (F := Ideal) x0 x1 x2 x4 x5) (val_main_v41 (F := Ideal) x1) (val_main_v48 (F := Ideal) x2)
          (val_main_v58 (F := Ideal) x1) (val_main_v61 (F := Ideal) x2) x8 x9)
        x3 := by
  rw [← mean_eq, ← logstd_eq]
  rfl

end Cert.RefLatent

end
-- ==== Proof.Spec.lean ====
/-
  The decoder: from the latent rows `z : [8192, 16]` to the reconstructed adjacency `[8192, 8192]`,
      decode z (p, q) = σ( Σ_d z(p, d) · z(q, d) ),      σ x = 1 / (1 + e^(-x)),
  the logistic function of the inner product of rows `p` and `q`, over the extended reals (σ(-∞) = 0, σ(+∞) = 1).
-/
import Idealize.ShloMosaic.Lib.ValueIdx
import Idealize.ShloMosaic.PureOps.Ideal.Laws

noncomputable section

open scoped BigOperators

namespace Cert.Spec

open Idealize.ShloMosaic Idealize.ShloMosaic.ValueIdx

/-- The reconstructed adjacency as ONE function of the latent rows, entry by entry. -/
def decode (z : FVec Ideal ⟨2, ![8192, 16]⟩ .f32) : FVec Ideal ⟨2, ![8192, 8192]⟩ .f32 :=
  fun i => FloatOps.logistic (F := Ideal) (φ := .f32) (∑ d : Fin 16, z (ix2 (i 0) d) * z (ix2 (i 1) d))

theorem decode_apply (z : FVec Ideal ⟨2, ![8192, 16]⟩ .f32) (p q : Fin 8192) :
    decode z (ix2 p q) = FloatOps.logistic (F := Ideal) (φ := .f32) (∑ d : Fin 16, z (ix2 p d) * z (ix2 q d)) := rfl

/-- The single-precision word of 1.0 denotes the real number 1. -/
theorem one_word : Ideal.ofBits .f32 0x3F800000#32 = 1 := by
  simp [Ideal.ofBits, Ideal.ieee, -EReal.coe_mul]; norm_num

/-- The logistic function spelt in four operations — negate, exponential, add to one, divide one by it — is the
    logistic function. -/
theorem logistic_spelt (x : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf x)))
      = FloatOps.logistic x := by
  rw [one_word]; rfl

end Cert.Spec

end
-- ==== Proof.RefDecode.lean ====
/-
  The reference's decoder read entry by entry: its transpose, matrix product and four-operation logistic function of the
  latent rows are `decode` of those rows. At `(p, q)` the product of `z` with its transpose sums, over the 16 latent
  features `d`, `z (p, d)` times the transpose at `(d, q)`, which is `z (q, d)`.
-/
import proofs.«118191_j59631325938137_2_alg».proof.Proof.Gen.ReferenceIdeal.Read
import proofs.«118191_j59631325938137_2_alg».proof.Proof.Spec

noncomputable section

open scoped BigOperators

namespace Cert.RefDecode

open Idealize.ShloMosaic Idealize.ShloMosaic.ValueIdx Cert.ReferenceIdeal Cert.ReferenceIdeal.Read

/-- The reference's result is `decode` of its latent rows. -/
theorem result_eq (x0 : (⟨S8192x256, .f32⟩ : BufTy).Contents (Elt Ideal)) (x1 x2 : (⟨S262144, .i32⟩ : BufTy).Contents (Elt Ideal))
    (x3 : (⟨S8192x16, .f32⟩ : BufTy).Contents (Elt Ideal)) (x4 : (⟨S256x64, .f32⟩ : BufTy).Contents (Elt Ideal))
    (x5 : (⟨S64, .f32⟩ : BufTy).Contents (Elt Ideal)) (x6 : (⟨S64x16, .f32⟩ : BufTy).Contents (Elt Ideal))
    (x7 : (⟨S16, .f32⟩ : BufTy).Contents (Elt Ideal)) (x8 : (⟨S64x16, .f32⟩ : BufTy).Contents (Elt Ideal))
    (x9 : (⟨S16, .f32⟩ : BufTy).Contents (Elt Ideal)) :
    val_main_v113 (F := Ideal) x0 x1 x2 x3 x4 x5 x6 x7 x8 x9
      = Spec.decode (val_main_v105 (F := Ideal) x0 x1 x2 x3 x4 x5 x6 x7 x8 x9) := by
  funext i
  obtain ⟨p, q, rfl⟩ : ∃ (p q : Fin 8192), i = ix2 p q := ⟨i 0, i 1, eq_ix2 i⟩
  have el : ∀ k : Fin 16, lidx_main_v107 (ix2 p q) k = ix2 p k := fun k => funext fun a => Fin.ext (by
    match a with
    | ⟨0, _⟩ => rfl
    | ⟨1, _⟩ => rfl)
  have er : ∀ k : Fin 16, idx_main_v106 (ridx_main_v107 (ix2 p q) k) = ix2 q k := fun k => funext fun a => Fin.ext (by
    match a with
    | ⟨0, _⟩ => rfl
    | ⟨1, _⟩ => rfl)
  rw [val_main_v113_apply, val_main_v112_apply, val_main_cst_32_apply, val_main_v111_apply, val_main_v110_apply,
    val_main_cst_31_apply, val_main_v109_apply, val_main_v108_apply, val_main_v107_apply]
  simp only [val_main_v106_apply, el, er]
  exact Spec.logistic_spelt _

end Cert.RefDecode

end
-- ==== Proof.LibTRef.lean ====
/-
  A typed reference's two transports undo each other.

  A tensor value of a module-local function is kept in a buffer whose recorded type equals the value's type; contents
  are carried between the two types along that equation (`toBuf` one way, `ofBuf` back). Carrying there and back,
  either way round, is the identity, whatever the equation's proof.
-/
import Idealize.ShloMosaic.Lib.StableHlo

namespace Cert.LibTRef

open Idealize.ShloMosaic Idealize.ShloMosaic.StableHlo

variable {sig : RefSig} {T : BufTy} {Val : EltTy → Type}

/-- Into the buffer's type and back. -/
theorem ofBuf_toBuf (x : TRef sig T) (v : T.Contents Val) : x.ofBuf (x.toBuf v) = v := by
  unfold TRef.ofBuf TRef.toBuf
  rw [cast_cast, cast_eq]

/-- Out of the buffer's type and back in. -/
theorem toBuf_ofBuf (x : TRef sig T) (u : x.ref.ty.Contents Val) : x.toBuf (x.ofBuf u) = u := by
  unfold TRef.ofBuf TRef.toBuf
  rw [cast_cast, cast_eq]

end Cert.LibTRef
-- ==== Proof.EntryA.lean ====
/-
  What the decoder's kernel is launched on, in terms of what the host has computed by then.

  Before the region the host computes the hidden rows, the two degree norms and the two index columns, and from them
  ONE head over the concatenated weights, cut in two, and `z = first half + noise · exp (second half)`. Read back, the
  array the region finds for its input is the wide head's latent rows over the hidden rows, norms and index columns
  as the region finds THEM.
-/
import proofs.«118191_j59631325938137_2_alg».proof.Proof.Gen.KernelIdeal.Frame
import proofs.«118191_j59631325938137_2_alg».proof.Proof.Gen.ReferenceIdeal.Read
import proofs.«118191_j59631325938137_2_alg».proof.Proof.Fused
import proofs.«118191_j59631325938137_2_alg».proof.Proof.LibTRef
import Idealize.ShloMosaic.Lib.StableHlo.Run

noncomputable section

namespace Cert.EntryA

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 16384 in
set_option maxHeartbeats 8000000 in
/-- The kernel's input as the region finds it: the wide head's latent rows, over five earlier arrays as the region finds them. -/
theorem latent_of_parts (c : Dev nD) :
    (V m c main_v75 : S8192x16.Idx → Elt Ideal .f32)
      = Fused.Wide.z (Fused.Wide.full (V m c main_v34) (V m c main_v43) (V m c main_v50) (V m c main_v60) (V m c main_v63)
          (m ((c : Thread nD τ).loc main_arg6)) (m ((c : Thread nD τ).loc main_arg8))
          (m ((c : Thread nD τ).loc main_arg7)) (m ((c : Thread nD τ).loc main_arg9)))
        (m ((c : Thread nD τ).loc main_arg3)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  all_goals (try simp only [LibTRef.ofBuf_toBuf, LibTRef.toBuf_ofBuf])
  all_goals rfl

end Cert.EntryA

end
-- ==== Proof.EntryB.lean ====
/-
  The degree norms and index columns the kernel's second layer starts from are the reference's.

  The source and target degree norms and the source and target index columns are computed on the host by the kernel's
  program and by the reference's program through the same operations of the same arguments, in the same order; read
  back from the kernel's program, each is the reference's stage.
-/
import proofs.«118191_j59631325938137_2_alg».proof.Proof.Gen.KernelIdeal.Frame
import proofs.«118191_j59631325938137_2_alg».proof.Proof.Gen.ReferenceIdeal.Read
import proofs.«118191_j59631325938137_2_alg».proof.Proof.Fused
import proofs.«118191_j59631325938137_2_alg».proof.Proof.LibTRef
import Idealize.ShloMosaic.Lib.StableHlo.Run

noncomputable section

namespace Cert.EntryB

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 16384 in
set_option maxHeartbeats 8000000 in
/-- The source degree norm. -/
theorem norm_src (c : Dev nD) :
    (V m c main_v43 : FVec Ideal S8192 .f32) = Cert.ReferenceIdeal.Read.val_main_v41 (F := Ideal) (m ((c : Thread nD τ).loc main_arg1)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [LibTRef.ofBuf_toBuf, LibTRef.toBuf_ofBuf]
  show (Host.powf
      (maximumf (broadcastInDim Cert.KernelIdeal.S8192 ![] Cert.KernelIdeal.Facts₀.bcast_S_S8192 (id (constant (F := Ideal) Cert.KernelIdeal.S_ .f32 0x3F800000#32)))
        (Host.scatterAdd Cert.KernelIdeal.scatter_S8192_S262144x1_S262144_n_0_0_1
          (broadcastInDim Cert.KernelIdeal.S8192 ![] Cert.KernelIdeal.Facts₀.bcast_S_S8192 (constant (F := Ideal) Cert.KernelIdeal.S_ .f32 0x00000000#32))
          (broadcastInDim Cert.KernelIdeal.S262144x1 ![0] Cert.KernelIdeal.Facts₀.bcast_S262144_S262144x1_0 (m (c, Proc.devRef .tc main_arg1)))
          (broadcastInDim Cert.KernelIdeal.S262144 ![] Cert.KernelIdeal.Facts₀.bcast_S_S262144 (constant (F := Ideal) Cert.KernelIdeal.S_ .f32 0x3F800000#32))))
      (broadcastInDim Cert.KernelIdeal.S8192 ![] Cert.KernelIdeal.Facts₀.bcast_S_S8192 (constant (F := Ideal) Cert.KernelIdeal.S_ .f32 0xBF000000#32))) = _
  rfl

set_option maxRecDepth 16384 in
set_option maxHeartbeats 8000000 in
/-- The target degree norm. -/
theorem norm_dst (c : Dev nD) :
    (V m c main_v50 : FVec Ideal S8192 .f32) = Cert.ReferenceIdeal.Read.val_main_v48 (F := Ideal) (m ((c : Thread nD τ).loc main_arg2)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [LibTRef.ofBuf_toBuf, LibTRef.toBuf_ofBuf]
  show (Host.powf
      (maximumf (broadcastInDim Cert.KernelIdeal.S8192 ![] Cert.KernelIdeal.Facts₀.bcast_S_S8192 (id (constant (F := Ideal) Cert.KernelIdeal.S_ .f32 0x3F800000#32)))
        (Host.scatterAdd Cert.KernelIdeal.scatter_S8192_S262144x1_S262144_n_0_0_1
          (broadcastInDim Cert.KernelIdeal.S8192 ![] Cert.KernelIdeal.Facts₀.bcast_S_S8192 (constant (F := Ideal) Cert.KernelIdeal.S_ .f32 0x00000000#32))
          (broadcastInDim Cert.KernelIdeal.S262144x1 ![0] Cert.KernelIdeal.Facts₀.bcast_S262144_S262144x1_0 (m (c, Proc.devRef .tc main_arg2)))
          (broadcastInDim Cert.KernelIdeal.S262144 ![] Cert.KernelIdeal.Facts₀.bcast_S_S262144 (constant (F := Ideal) Cert.KernelIdeal.S_ .f32 0x3F800000#32))))
      (broadcastInDim Cert.KernelIdeal.S8192 ![] Cert.KernelIdeal.Facts₀.bcast_S_S8192 (constant (F := Ideal) Cert.KernelIdeal.S_ .f32 0xBF000000#32))) = _
  rfl

set_option maxRecDepth 16384 in
set_option maxHeartbeats 8000000 in
/-- The source index column (negative indices wrapped). -/
theorem col_src (c : Dev nD) :
    (V m c main_v60 : (⟨S262144x1, .i32⟩ : BufTy).Contents (Elt Ideal)) = Cert.ReferenceIdeal.Read.val_main_v58 (F := Ideal) (m ((c : Thread nD τ).loc main_arg1)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp <;> rfl

set_option maxRecDepth 16384 in
set_option maxHeartbeats 8000000 in
/-- The target index column. -/
theorem col_dst (c : Dev nD) :
    (V m c main_v63 : (⟨S262144x1, .i32⟩ : BufTy).Contents (Elt Ideal)) = Cert.ReferenceIdeal.Read.val_main_v61 (F := Ideal) (m ((c : Thread nD τ).loc main_arg2)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp <;> rfl

end Cert.EntryB

end
-- ==== Proof.EntryH.lean ====
/-
  The hidden rows the kernel's second layer starts from are the reference's.

  `h = relu (conv (features; W0, b0))` is computed on the host by the kernel's program and by the reference's program
  through the same operations of the same arguments, in the same order. Read back from the kernel's program (the
  values that pass through the called `clip` and `relu` functions are carried between a buffer's recorded type and the
  value's type, which changes nothing), it is the reference's stage.
-/
import proofs.«118191_j59631325938137_2_alg».proof.Proof.Gen.KernelIdeal.Frame
import proofs.«118191_j59631325938137_2_alg».proof.Proof.Gen.ReferenceIdeal.Read
import proofs.«118191_j59631325938137_2_alg».proof.Proof.Fused
import proofs.«118191_j59631325938137_2_alg».proof.Proof.LibTRef
import Idealize.ShloMosaic.Lib.StableHlo.Run

noncomputable section

namespace Cert.EntryH

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 16384 in
set_option maxHeartbeats 8000000 in
/-- The hidden rows `relu (conv (features; W0, b0))`. -/
theorem hidden (c : Dev nD) :
    (V m c main_v34 : FVec Ideal S8192x64 .f32)
      = Cert.ReferenceIdeal.Read.val_main_v34 (F := Ideal) (m ((c : Thread nD τ).loc main_arg0)) (m ((c : Thread nD τ).loc main_arg1))
          (m ((c : Thread nD τ).loc main_arg2)) (m ((c : Thread nD τ).loc main_arg4)) (m ((c : Thread nD τ).loc main_arg5)) := by
  dsimp only [Gen.V]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [LibTRef.ofBuf_toBuf, LibTRef.toBuf_ofBuf]
  show (maximumf
  (addf
    (mulf
      (Host.scatterAdd Cert.KernelIdeal.scatter_S8192x64_S262144x1_S262144x64_1_0_0_1
        (broadcastInDim Cert.KernelIdeal.S8192x64 ![] Cert.KernelIdeal.Facts₀.bcast_S_S8192x64 (constant (F := Ideal) Cert.KernelIdeal.S_ .f32 0x00000000#32))
        (broadcastInDim Cert.KernelIdeal.S262144x1 ![0] Cert.KernelIdeal.Facts₀.bcast_S262144_S262144x1_0 (m (c, Proc.devRef .tc main_arg2)))
        (Host.gather Cert.KernelIdeal.gather_S8192x64_S262144x1_S262144x64_1_0_n_n_0_1_164
          (Host.dotGeneral Cert.KernelIdeal.dot_S8192x256_S256x64_S8192x64_1_0_0_1_n_n none
            (mulf (m (c, Proc.devRef .tc main_arg0)) (broadcastInDim Cert.KernelIdeal.S8192x256 ![0, 1] Cert.KernelIdeal.Facts₀.bcast_S8192x1_S8192x256_0_1
              (broadcastInDim Cert.KernelIdeal.S8192x1 ![0] Cert.KernelIdeal.Facts₀.bcast_S8192_S8192x1_0 (Host.powf
      (maximumf (broadcastInDim Cert.KernelIdeal.S8192 ![] Cert.KernelIdeal.Facts₀.bcast_S_S8192 (id (constant (F := Ideal) Cert.KernelIdeal.S_ .f32 0x3F800000#32)))
        (Host.scatterAdd Cert.KernelIdeal.scatter_S8192_S262144x1_S262144_n_0_0_1
          (broadcastInDim Cert.KernelIdeal.S8192 ![] Cert.KernelIdeal.Facts₀.bcast_S_S8192 (constant (F := Ideal) Cert.KernelIdeal.S_ .f32 0x00000000#32))
          (broadcastInDim Cert.KernelIdeal.S262144x1 ![0] Cert.KernelIdeal.Facts₀.bcast_S262144_S262144x1_0 (m (c, Proc.devRef .tc main_arg1)))
          (broadcastInDim Cert.KernelIdeal.S262144 ![] Cert.KernelIdeal.Facts₀.bcast_S_S262144 (constant (F := Ideal) Cert.KernelIdeal.S_ .f32 0x3F800000#32))))
      (broadcastInDim Cert.KernelIdeal.S8192 ![] Cert.KernelIdeal.Facts₀.bcast_S_S8192 (constant (F := Ideal) Cert.KernelIdeal.S_ .f32 0xBF000000#32))))))
            (m (c, Proc.devRef .tc main_arg4)))
          (broadcastInDim Cert.KernelIdeal.S262144x1 ![0] Cert.KernelIdeal.Facts₀.bcast_S262144_S262144x1_0
            (select (cmpi .slt (m (c, Proc.devRef .tc main_arg1)) (broadcastInDim Cert.KernelIdeal.S262144 ![] Cert.KernelIdeal.Facts₀.bcast_S_S262144 (constantI Cert.KernelIdeal.S_ 32 0#32)))
              (addi (m (c, Proc.devRef .tc main_arg1)) (broadcastInDim Cert.KernelIdeal.S262144 ![] Cert.KernelIdeal.Facts₀.bcast_S_S262144 (constantI Cert.KernelIdeal.S_ 32 8192#32))) (m (c, Proc.devRef .tc main_arg1))))))
      (broadcastInDim Cert.KernelIdeal.S8192x64 ![0, 1] Cert.KernelIdeal.Facts₀.bcast_S8192x1_S8192x64_0_1
        (broadcastInDim Cert.KernelIdeal.S8192x1 ![0] Cert.KernelIdeal.Facts₀.bcast_S8192_S8192x1_0 (Host.powf
      (maximumf (broadcastInDim Cert.KernelIdeal.S8192 ![] Cert.KernelIdeal.Facts₀.bcast_S_S8192 (id (constant (F := Ideal) Cert.KernelIdeal.S_ .f32 0x3F800000#32)))
        (Host.scatterAdd Cert.KernelIdeal.scatter_S8192_S262144x1_S262144_n_0_0_1
          (broadcastInDim Cert.KernelIdeal.S8192 ![] Cert.KernelIdeal.Facts₀.bcast_S_S8192 (constant (F := Ideal) Cert.KernelIdeal.S_ .f32 0x00000000#32))
          (broadcastInDim Cert.KernelIdeal.S262144x1 ![0] Cert.KernelIdeal.Facts₀.bcast_S262144_S262144x1_0 (m (c, Proc.devRef .tc main_arg2)))
          (broadcastInDim Cert.KernelIdeal.S262144 ![] Cert.KernelIdeal.Facts₀.bcast_S_S262144 (constant (F := Ideal) Cert.KernelIdeal.S_ .f32 0x3F800000#32))))
      (broadcastInDim Cert.KernelIdeal.S8192 ![] Cert.KernelIdeal.Facts₀.bcast_S_S8192 (constant (F := Ideal) Cert.KernelIdeal.S_ .f32 0xBF000000#32))))))
    (broadcastInDim Cert.KernelIdeal.S8192x64 ![0, 1] Cert.KernelIdeal.Facts₀.bcast_S1x64_S8192x64_0_1 (broadcastInDim Cert.KernelIdeal.S1x64 ![1] Cert.KernelIdeal.Facts₀.bcast_S64_S1x64_1 (m (c, Proc.devRef .tc main_arg5)))))
  (broadcastInDim Cert.KernelIdeal.S8192x64 ![] Cert.KernelIdeal.Facts₀.bcast_S_S8192x64 (constant (F := Ideal) Cert.KernelIdeal.S_ .f32 0x00000000#32))) = _
  rfl

end Cert.EntryH

end
-- ==== Proof.Entry.lean ====
/-
  What the decoder's kernel is launched on: the latent rows from the wide head, over the hidden rows, degree norms and
  index columns named as the reference's stages name them (the host operations that compute them are the same).
-/
import proofs.«118191_j59631325938137_2_alg».proof.Proof.EntryA
import proofs.«118191_j59631325938137_2_alg».proof.Proof.EntryB
import proofs.«118191_j59631325938137_2_alg».proof.Proof.EntryH

noncomputable section

namespace Cert.Entry

open Idealize.ShloMosaic Idealize.ShloMosaic.TcCoe Idealize.SL.Sem
open Cert.KernelIdeal Cert.KernelIdeal.Gen

variable (m : (ℓ : Loc nD τ sig) → Buf (Elt Ideal) ℓ)

/-- THE KERNEL'S INPUT as the region finds it. -/
theorem latent_entry (c : Dev nD) :
    (V m c main_v75 : S8192x16.Idx → Elt Ideal .f32)
      = Fused.Wide.z
          (Fused.Wide.full
            (Cert.ReferenceIdeal.Read.val_main_v34 (F := Ideal) (m ((c : Thread nD τ).loc main_arg0)) (m ((c : Thread nD τ).loc main_arg1))
              (m ((c : Thread nD τ).loc main_arg2)) (m ((c : Thread nD τ).loc main_arg4)) (m ((c : Thread nD τ).loc main_arg5)))
            (Cert.ReferenceIdeal.Read.val_main_v41 (F := Ideal) (m ((c : Thread nD τ).loc main_arg1)))
            (Cert.ReferenceIdeal.Read.val_main_v48 (F := Ideal) (m ((c : Thread nD τ).loc main_arg2)))
            (Cert.ReferenceIdeal.Read.val_main_v58 (F := Ideal) (m ((c : Thread nD τ).loc main_arg1)))
            (Cert.ReferenceIdeal.Read.val_main_v61 (F := Ideal) (m ((c : Thread nD τ).loc main_arg2)))
            (m ((c : Thread nD τ).loc main_arg6)) (m ((c : Thread nD τ).loc main_arg8))
            (m ((c : Thread nD τ).loc main_arg7)) (m ((c : Thread nD τ).loc main_arg9)))
          (m ((c : Thread nD τ).loc main_arg3)) := by
  rw [EntryA.latent_of_parts m c, EntryH.hidden m c, EntryB.norm_src m c, EntryB.norm_dst m c, EntryB.col_src m c,
    EntryB.col_dst m c]

end Cert.Entry

end
-- ==== Proof.LibRowDot.lean ====
/-
  A matrix product that contracts the LAST axis of both of its rank-2 operands — the rows of the first against the rows of
  the second, `A · Bᵀ`, dimension numbers `DotDims.transposedRhs M K N` — read at an output index `(p, q)`: over the
  extended reals it is the plain sum, over the shared axis, of the products `A (p, d) · B (q, d)`. Stated for the vector
  unit's product into a zero accumulator and for the host's `dot_general`; the two therefore agree entry by entry,
  whatever the sizes of the blocks either is applied to.
-/
import Idealize.ShloMosaic.PureOps.Ideal.Laws
import Idealize.ShloMosaic.Lib.ValueIdx

noncomputable section

open scoped BigOperators

namespace Cert.LibRowDot

open Idealize.ShloMosaic Idealize.ShloMosaic.ValueIdx

variable {M K N : Nat}

/-- The contraction runs over one axis … -/
theorem contr_rank : (DotDims.transposedRhs M K N).contr.rank = 1 := rfl

/-- … of the operands' common row length. -/
theorem contr_size : (DotDims.transposedRhs M K N).contr.size ⟨0, by rw [contr_rank]; exact Nat.one_pos⟩ = K := rfl

/-- The left operand is read in the output's row … -/
theorem lhs_row (j : (⟨2, ![M, N]⟩ : Shape).Idx) (k : (DotDims.transposedRhs M K N).contr.Idx) :
    ((DotDims.transposedRhs M K N).lhsIdx j k 0).val = (j 0).val := by
  simp [DotDims.lhsIdx, DotDims.transposedRhs]
  rfl

/-- … and the right operand in the row the output's column names. -/
theorem rhs_row (j : (⟨2, ![M, N]⟩ : Shape).Idx) (k : (DotDims.transposedRhs M K N).contr.Idx) :
    ((DotDims.transposedRhs M K N).rhsIdx j k 0).val = (j 1).val := by
  simp [DotDims.rhsIdx, DotDims.transposedRhs]
  rfl

/-- The contraction's sum, re-indexed by the position `d` along the shared axis. -/
theorem sum_rows (l : (⟨2, ![M, K]⟩ : Shape).Idx → EReal) (r : (⟨2, ![N, K]⟩ : Shape).Idx → EReal)
    (j : (⟨2, ![M, N]⟩ : Shape).Idx) :
    ∑ k : (DotDims.transposedRhs M K N).contr.Idx,
        l ((DotDims.transposedRhs M K N).lhsIdx j k) * r ((DotDims.transposedRhs M K N).rhsIdx j k)
      = ∑ d : Fin K, l (ix2 (j 0) d) * r (ix2 (j 1) d) := by
  refine (Equiv.sum_comp (contrEquiv1 (DotDims.transposedRhs M K N) K contr_rank contr_size).symm _).symm.trans ?_
  refine Finset.sum_congr rfl fun d _ => ?_
  have hl : (DotDims.transposedRhs M K N).lhsIdx j ((contrEquiv1 (DotDims.transposedRhs M K N) K contr_rank contr_size).symm d)
      = ix2 (j 0) d := by
    funext a; apply Fin.ext
    match a with
    | ⟨0, _⟩ => exact lhs_row j _
    | ⟨1, _⟩ =>
      exact ((DotDims.transposedRhs M K N).lhsIdx_val_of_single (cl := 1) rfl j _).trans
        (contrEquiv1_symm_val (DotDims.transposedRhs M K N) K contr_rank contr_size d)
  have hr : (DotDims.transposedRhs M K N).rhsIdx j ((contrEquiv1 (DotDims.transposedRhs M K N) K contr_rank contr_size).symm d)
      = ix2 (j 1) d := by
    funext a; apply Fin.ext
    match a with
    | ⟨0, _⟩ => exact rhs_row j _
    | ⟨1, _⟩ =>
      exact ((DotDims.transposedRhs M K N).rhsIdx_val_of_single (cr := 1) rfl j _).trans
        (contrEquiv1_symm_val (DotDims.transposedRhs M K N) K contr_rank contr_size d)
  rw [hl, hr]
  rfl

/-- The vector unit's product into a zero accumulator, at `(p, q)`. -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ d : Fin K, l (ix2 p d) * r (ix2 q d) :=
  (Ideal.matmul_constant_zero_apply _ prec l r (ix2 p q)).trans (sum_rows l r (ix2 p q))

/-- The host's `dot_general`, at `(p, q)`, whatever its schedule. -/
theorem dotGeneral_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q)
      = ∑ d : Fin K, l (ix2 p d) * r (ix2 q d) :=
  (Ideal.dotGeneral_apply _ prec sched l r (ix2 p q)).trans (sum_rows l r (ix2 p q))

end Cert.LibRowDot

end
-- ==== Proof.Body.lean ====
/-
  The decoder's kernel body at one grid point `(i₀, i₁)`.

  The body reads rows `1024·i₀ … 1024·i₀ + 1023` and rows `2048·i₁ … 2048·i₁ + 2047` of the resident latent rows
  `z : [8192, 16]`, multiplies the first range by the transpose of the second (contracting the 16 latent features; the
  change of float format before the product is the identity over the extended reals, and the product starts from a zero
  accumulator, so it is the plain sum of the 16 products) and stores the logistic function of that `[1024, 2048]` product
  as its whole output block. So entry `(a, b)` of the block is `σ (Σ_d z (1024·i₀ + a, d) · z (2048·i₁ + b, d))`.
-/
import proofs.«118191_j59631325938137_2_alg».proof.Proof.Gen.KernelIdeal.Frame
import proofs.«118191_j59631325938137_2_alg».proof.Proof.LibRowDot
import Idealize.ShloMosaic.Lib.Pipeline.Value
import Idealize.ShloMosaic.Lib.ValueIdx
import Idealize.ShloMosaic.PureOps.Ideal.Laws

set_option maxRecDepth 16384

noncomputable section

open scoped BigOperators

namespace Cert.Decoder

open Idealize.ShloMosaic Idealize.ShloMosaic.TcCoe Idealize.ShloMosaic.ValueIdx Idealize.SL.Sem
open Cert.KernelIdeal Cert.KernelIdeal.Gen

theorem zero_off : (![0, 0] : Fin 2 → Nat) = fun _ => 0 := funext fun a => by fin_cases a <;> rfl

section Generic

variable {F : FTy → Type} [FloatOps F]

/-- What the body leaves in its output block: the value of its one store, computed from the two row ranges it loads. -/
theorem out_eq (c : Dev nD) (i : grid0.Coords) (arg2 : Memref sig .tc .vmem S8192x16 .f32) (harg2 : arg2.IsWhole)
    (arg3 : Memref sig .tc .vmem S1024x2048 .f32) (harg3 : arg3.IsWhole) (x0 : Vec F S8192x16 .f32) :
    out0_A_1 (F := F) c i arg2 harg2 arg3 harg3 x0
      = k0_pay1 (View.ld x0 (Rect.unit (s := S8192x16) (k0_off1 i) S1024x16.size (k0_off1_inb i)))
          (View.ld x0 (Rect.unit (s := S8192x16) (k0_off2 i) S2048x16.size (k0_off2_inb i))) := by
  unfold out0_A_1
  rw [View.read_writes_eq_canon _ _ _ (cover0_A_1 c i arg2 harg2 arg3 harg3 x0)]
  unfold kernelRun0_A
  dsimp only
  rw [View.canon_unit_zero zero_off]
  simp only [View.readAt_eq_ld, harg2.read_unread]

end Generic

/-- The body's arithmetic at `(a, b)`: the logistic function of the inner product of row `a` of the first range and
    row `b` of the second. -/
theorem pay_apply (v5 : Vec Ideal S1024x16 .f32) (v9 : Vec Ideal S2048x16 .f32) (a : Fin 1024) (b : Fin 2048) :
    k0_pay1 (F := Ideal) v5 v9 (ix2 a b)
      = FloatOps.logistic (F := Ideal) (φ := .f32) (∑ d : Fin 16, v5 (ix2 a d) * v9 (ix2 b d)) := by
  unfold k0_pay1
  refine congrArg (FloatOps.logistic (F := Ideal) (φ := .f32)) ?_
  refine (LibRowDot.matmul_zero_apply (M := 1024) (K := 16) (N := 2048) none _ _ a b).trans ?_
  refine Finset.sum_congr rfl fun d _ => ?_
  rw [shapeCast_self, shapeCast_self]
  rfl

/-- The first range's row `a` is the resident rows' row `1024·i₀ + a`. -/
theorem ld_rows1 (i : grid0.Coords) (x0 : Vec Ideal S8192x16 .f32) (a : Fin 1024) (d : Fin 16) (P : Fin 8192)
    (hP : P.val = 1024 * (i 0).val + a.val) :
    View.ld x0 (Rect.unit (s := S8192x16) (k0_off1 i) S1024x16.size (k0_off1_inb i)) (ix2 a d) = x0 (ix2 P d) := by
  show x0 ((Rect.unit (s := S8192x16) (k0_off1 i) S1024x16.size (k0_off1_inb i)).emb (ix2 a d)) = _
  refine congrArg x0 (funext fun ax => Fin.ext ?_)
  match ax with
  | ⟨0, _⟩ =>
    show k0_off1 i 0 + 1 * a.val = P.val
    rw [k0_off1_eq]; show 1024 * (i 0).val + 1 * a.val = P.val; omega
  | ⟨1, _⟩ =>
    show k0_off1 i 1 + 1 * d.val = d.val
    rw [k0_off1_eq]; show 0 + 1 * d.val = d.val; omega

/-- The second range's row `b` is the resident rows' row `2048·i₁ + b`. -/
theorem ld_rows2 (i : grid0.Coords) (x0 : Vec Ideal S8192x16 .f32) (b : Fin 2048) (d : Fin 16) (Q : Fin 8192)
    (hQ : Q.val = 2048 * (i 1).val + b.val) :
    View.ld x0 (Rect.unit (s := S8192x16) (k0_off2 i) S2048x16.size (k0_off2_inb i)) (ix2 b d) = x0 (ix2 Q d) := by
  show x0 ((Rect.unit (s := S8192x16) (k0_off2 i) S2048x16.size (k0_off2_inb i)).emb (ix2 b d)) = _
  refine congrArg x0 (funext fun ax => Fin.ext ?_)
  match ax with
  | ⟨0, _⟩ =>
    show k0_off2 i 0 + 1 * b.val = Q.val
    rw [k0_off2_eq]; show 2048 * (i 1).val + 1 * b.val = Q.val; omega
  | ⟨1, _⟩ =>
    show k0_off2 i 1 + 1 * d.val = d.val
    rw [k0_off2_eq]; show 0 + 1 * d.val = d.val; omega

/-- ENTRY `(a, b)` OF THE BLOCK the body leaves at point `i`, from the resident rows `x0`. -/
theorem out_apply (c : Dev nD) (i : grid0.Coords) (arg2 : Memref sig .tc .vmem S8192x16 .f32) (harg2 : arg2.IsWhole)
    (arg3 : Memref sig .tc .vmem S1024x2048 .f32) (harg3 : arg3.IsWhole) (x0 : Vec Ideal S8192x16 .f32)
    (a : Fin 1024) (b : Fin 2048) (P Q : Fin 8192)
    (hP : P.val = 1024 * (i 0).val + a.val) (hQ : Q.val = 2048 * (i 1).val + b.val) :
    out0_A_1 (F := Ideal) c i arg2 harg2 arg3 harg3 x0 (ix2 a b)
      = FloatOps.logistic (F := Ideal) (φ := .f32) (∑ d : Fin 16, x0 (ix2 P d) * x0 (ix2 Q d)) := by
  rw [out_eq, pay_apply]
  refine congrArg (FloatOps.logistic (F := Ideal) (φ := .f32)) (Finset.sum_congr rfl fun d _ => ?_)
  rw [ld_rows1 i x0 a d P hP, ld_rows2 i x0 b d Q hQ]

end Cert.Decoder

end
-- ==== Proof.Blocks.lean ====
/-
  From the 32 blocks to the whole reconstructed adjacency.

  Grid point `t = (i₀, i₁)` (8 × 4 points) writes back block `(i₀, i₁)` of the `[8192, 8192]` result: rows
  `1024·i₀ … 1024·i₀ + 1023`, columns `2048·i₁ … 2048·i₁ + 2047`. Its input block is the whole of the latent rows
  at every point. By the body's arithmetic, entry `(a, b)` of what it writes is `decode z` at
  `(1024·i₀ + a, 2048·i₁ + b)`: each block is the restriction of the ONE function `decode z`. The 32 blocks tile
  the result (row `P` is in block row `P / 1024`, column `Q` in block column `Q / 2048`), so after the run the
  result array is `decode z`, for `z` the latent rows the region was launched on.
-/
import proofs.«118191_j59631325938137_2_alg».proof.Proof.Gen.KernelIdeal.Value
import proofs.«118191_j59631325938137_2_alg».proof.Proof.Body
import proofs.«118191_j59631325938137_2_alg».proof.Proof.Spec
import Idealize.ShloMosaic.Lib.Pipeline.Value
import Idealize.ShloMosaic.Lib.ValueIdx

set_option maxRecDepth 16384

noncomputable section

open scoped BigOperators

namespace Cert.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The printed index maps over the grid: the input's block index is always `(0, 0)`, the output's is the point's
    coordinates, and those stay in their ranges. -/
theorem idx_facts : ∀ t : Fin cfg0.N, win0_0.index t (0 : Fin 2) = 0 ∧ win0_0.index t (1 : Fin 2) = 0
    ∧ win0_1.index t (0 : Fin 2) = (grid0.coords t 0).val ∧ win0_1.index t (1 : Fin 2) = (grid0.coords t 1).val
    ∧ (grid0.coords t 0).val < 8 ∧ (grid0.coords t 1).val < 4 :=
  (by decide +kernel : ∀ t : Fin grid0.N, win0_0.index t (0 : Fin 2) = 0 ∧ win0_0.index t (1 : Fin 2) = 0
    ∧ win0_1.index t (0 : Fin 2) = (grid0.coords t 0).val ∧ win0_1.index t (1 : Fin 2) = (grid0.coords t 1).val
    ∧ (grid0.coords t 0).val < 8 ∧ (grid0.coords t 1).val < 4)

/-- Every block of the 8 × 4 box is some point's. -/
theorem idx_onto : ∀ (q0 : Fin 8) (q1 : Fin 4), ∃ t : Fin cfg0.N, win0_1.index t = ![q0.val, q1.val] :=
  (by decide +kernel : ∀ (q0 : Fin 8) (q1 : Fin 4), ∃ t : Fin grid0.N, win0_1.index t = ![q0.val, q1.val])

/-- The input block at any point is the whole of the latent rows as the region finds them. -/
theorem iblk_eq (c : Dev nD) (t : Fin cfg0.N) (y : S8192x16.Idx) : iblk m c 0 t y = V m c main_v75 y := by
  show V m c main_v75 (((cfg0.win 0).blk t).view.emb y) = V m c main_v75 y
  obtain ⟨e0, e1, -⟩ := idx_facts t
  refine congrArg _ (funext fun a => Fin.ext ?_)
  match a with
  | ⟨0, _⟩ => show win0_0.index t (0 : Fin 2) * 8192 + 1 * (y 0).val = (y 0).val; omega
  | ⟨1, _⟩ => show win0_0.index t (1 : Fin 2) * 16 + 1 * (y 1).val = (y 1).val; omega

/-- WHAT POINT `t` WRITES BACK is block `t` of `decode` of the latent rows. -/
theorem flushed_eq (c : Dev nD) (t : Fin cfg0.N) :
    (dats m 0 c).flushed 1 t
      = ((cfg0.win 1).blk t).view.read (Elt Ideal) (Spec.decode (V m c main_v75)) := by
  rw [Cert.KernelIdeal.Value.flushed1_A]
  obtain ⟨-, -, e2, e3, b0, b1⟩ := idx_facts t
  funext j
  show out0_A_1 c (grid0.coords t) (ms0_0 t) (hs0_0 t) (ms0_1 t) (hs0_1 t) (iblk m c 0 t) j
    = Spec.decode (V m c main_v75) (((cfg0.win 1).blk t).view.emb j)
  have hj0 : (j 0).val < 1024 := (j 0).isLt
  have hj1 : (j 1).val < 2048 := (j 1).isLt
  have hemb : ((cfg0.win 1).blk t).view.emb j
      = ix2 (⟨1024 * (grid0.coords t 0).val + (j 0).val, by omega⟩ : Fin 8192)
          (⟨2048 * (grid0.coords t 1).val + (j 1).val, by omega⟩ : Fin 8192) := by
    funext a; apply Fin.ext
    match a with
    | ⟨0, _⟩ => show win0_1.index t (0 : Fin 2) * 1024 + 1 * (j 0).val = 1024 * (grid0.coords t 0).val + (j 0).val; omega
    | ⟨1, _⟩ => show win0_1.index t (1 : Fin 2) * 2048 + 1 * (j 1).val = 2048 * (grid0.coords t 1).val + (j 1).val; omega
  have hj : j = ix2 (⟨(j 0).val, hj0⟩ : Fin 1024) (⟨(j 1).val, hj1⟩ : Fin 2048) := by
    funext a; apply Fin.ext
    match a with
    | ⟨0, _⟩ => rfl
    | ⟨1, _⟩ => rfl
  rw [hemb, Spec.decode_apply]
  refine (congrArg (out0_A_1 c (grid0.coords t) (ms0_0 t) (hs0_0 t) (ms0_1 t) (hs0_1 t) (iblk m c 0 t)) hj).trans ?_
  refine (Decoder.out_apply c (grid0.coords t) (ms0_0 t) (hs0_0 t) (ms0_1 t) (hs0_1 t) (iblk m c 0 t)
    ⟨(j 0).val, hj0⟩ ⟨(j 1).val, hj1⟩
    (⟨1024 * (grid0.coords t 0).val + (j 0).val, by omega⟩ : Fin 8192)
    (⟨2048 * (grid0.coords t 1).val + (j 1).val, by omega⟩ : Fin 8192) rfl rfl).trans ?_
  refine congrArg (FloatOps.logistic (F := Ideal) (φ := .f32)) (Finset.sum_congr rfl fun d _ => ?_)
  rw [iblk_eq, iblk_eq]

/-- An index of the result is in point `t`'s block iff each coordinate is in the block's range on its axis. -/
theorem mem_blk (t : Fin cfg0.N) (i : S8192x8192.Idx) :
    i ∈ ((cfg0.win 1).blk t).view.set
      ↔ ∀ a : Fin 2, win0_1.index t a * S1024x2048.size a ≤ (i a).val
          ∧ (i a).val < win0_1.index t a * S1024x2048.size a + S1024x2048.size a := by
  show i ∈ ((View.whole main_v76).slice (win0_1.rect t)).set ↔ _
  rw [View.set_slice_whole, Rect.mem_set_unit]
  exact Iff.rfl

/-- The 32 blocks cover the result. -/
theorem cover (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 2048 ≤ (i 1).val ∧ (i 1).val < win0_1.index t (1 : Fin 2) * 2048 + 2048
    omega

/-- THE RESULT ARRAY after the run: `decode` of the latent rows the region was launched on. -/
theorem final (c : Dev nD) : (dats m 0 c).arrAt 1 cfg0.N = Spec.decode (V m c main_v75) :=
  (dats m 0 c).arrAt_eq_of_cover 1 (Spec.decode (V m c main_v75)) (fun t _ => flushed_eq m c t) cover

/-- The kernel's run with its result named: every weakly fair execution terminates with the result at `decode` of
    the region-entry latent rows and the arguments unchanged. -/
theorem run : θ_run defs (onTc (τ := τ) (main (F := Ideal))) ⟨m, fun _ => 0, ρ⟩ fun r => ∀ c : Dev nD,
      r.2.mem ((c : Thread nD τ).loc main_v76) = Spec.decode (V m c main_v75)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Blocks

end
-- ==== Proof.lean ====
/-
  A variational graph auto-encoder's forward pass: the kernel against its reference, over the extended reals.

  Both programs compute, from node features, an edge list `(src, dst)`, noise and the weights,
      h        = relu (conv (features; W0, b0))                          hidden rows            [8192, 64]
      mean     = conv (h; W1, b1),   log_std = conv (h; W2, b2)          two heads              [8192, 16] each
      z        = mean + noise · exp (log_std)                            latent rows            [8192, 16]
      result   = σ (z · zᵀ)                                              adjacency              [8192, 8192]
  where `conv (x; W, b) (p, c) = (Σ_{e : dst e = p} Σ_k x (src e, k) · ns (src e) · W (k, c)) · nd (p) + b (c)`
  and `ns`, `nd` are the source and target degree norms. They differ in two places.

  * The kernel computes the two heads as ONE head over the concatenations `[W1 | W2]`, `[b1 | b2]` and cuts the
    32 columns in two. A column of a head depends on its own column of the weights and bias alone (the matrix
    product, the copy of rows, the sum of rows into rows, the scaling and the bias all act column by column), so the
    halves are the two heads, entry for entry: `Fused.z_eq`. No law of arithmetic is used beyond equality of the
    same sums of the same products, so nothing is asked of the entries (they may be infinite).
  * The kernel computes `σ (z · zᵀ)` in 8 × 4 blocks of `[1024, 2048]`, each the logistic function of the product of
    a range of rows of `z` with the transpose of another range, after a change of float format that is the identity
    here; the reference transposes `z`, multiplies, and spells the logistic function in four operations. Entry
    `(p, q)` is `σ (Σ_d z (p, d) · z (q, d))` either way (`Spec.decode`): `Blocks.run` for the kernel,
    `RefDecode.result_eq` for the reference.

  The kernel's frames and its run are the generated ones; the reference's frame is its generated run with the result
  forgotten; no rewrite was applied in idealizing the kernel, so that conjunct is `True`.
-/
import proofs.«118191_j59631325938137_2_alg».proof.Defs
import proofs.«118191_j59631325938137_2_alg».proof.Proof.Gen.Kernel
import proofs.«118191_j59631325938137_2_alg».proof.Proof.Gen.Kernel.Skeleton
import proofs.«118191_j59631325938137_2_alg».proof.Proof.Gen.Kernel.Launch
import proofs.«118191_j59631325938137_2_alg».proof.Proof.Gen.Kernel.Points
import proofs.«118191_j59631325938137_2_alg».proof.Proof.Gen.Kernel.Frame
import proofs.«118191_j59631325938137_2_alg».proof.Proof.Gen.KernelIdeal
import proofs.«118191_j59631325938137_2_alg».proof.Proof.Gen.KernelIdeal.Skeleton
import proofs.«118191_j59631325938137_2_alg».proof.Proof.Gen.KernelIdeal.Launch
import proofs.«118191_j59631325938137_2_alg».proof.Proof.Gen.KernelIdeal.Points
import proofs.«118191_j59631325938137_2_alg».proof.Proof.Gen.KernelIdeal.Frame
import proofs.«118191_j59631325938137_2_alg».proof.Proof.Gen.ReferenceIdeal
import proofs.«118191_j59631325938137_2_alg».proof.Proof.Gen.KernelIdeal.Value
import proofs.«118191_j59631325938137_2_alg».proof.Proof.Gen.ReferenceIdeal.Run
import proofs.«118191_j59631325938137_2_alg».proof.Proof.Gen.ReferenceIdeal.Read
import proofs.«118191_j59631325938137_2_alg».proof.Proof.Gen.Pre_finite_inputs
import proofs.«118191_j59631325938137_2_alg».proof.Proof.Fused
import proofs.«118191_j59631325938137_2_alg».proof.Proof.RefLatent
import proofs.«118191_j59631325938137_2_alg».proof.Proof.RefDecode
import proofs.«118191_j59631325938137_2_alg».proof.Proof.Entry
import proofs.«118191_j59631325938137_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the reference's result is `decode` of ITS latent rows, which are the two narrow heads,
    which are the halves of the wide head, whose latent rows are what the kernel's region is launched on, whose
    `decode` is the kernel's result. -/
theorem algebraic : Cert.algebraic_KernelIdeal_ReferenceIdeal := by
  intro m ρ m' ρ' _ hagree
  refine ⟨fun c => Spec.decode (Cert.KernelIdeal.Gen.V m c Cert.KernelIdeal.main_v75), Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  show Cert.ReferenceIdeal.Value.res_main_v113 m' c = Spec.decode (Cert.KernelIdeal.Gen.V m c Cert.KernelIdeal.main_v75)
  rw [Cert.ReferenceIdeal.Read.val_main_v113_eq, RefDecode.result_eq, RefLatent.latent_eq, ← Fused.z_eq,
    Entry.latent_entry m c, a0, a1, a2, a3, a4, a5, a6, a7, a8, a9]
  all_goals rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
